-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S50000 : Shape := ⟨1, ![50000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_v28 : IVec S_ 1) (main_v33 : IVec S2x1600000 1) : IVec S_ 1 :=
  let main_c_12 : IVec S_ 1 := constantI S_ 1 1#1
  let main_v34 : IVec S_ 1 := (fun x v => Host.reduce IntOp.andi x v reducesTo_S2x1600000_S_d0_1 h_S_) main_v33 main_c_12
  let main_v35 : IVec S_ 1 := andi main_v28 main_v34
  main_v35

def fn_part1 {F : FTy → Type} [FloatOps F] (main_arg1 : IVec S2x1600000 32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x1600000 32 := broadcastInDim S2x1600000 ![] bcast_S_S2x1600000 main_c_10
  let main_v30 : IVec S2x1600000 1 := cmpi .sge main_arg1 main_v29
  let main_c_11 : IVec S_ 32 := constantI S_ 32 50000#32
  let main_v31 : IVec S2x1600000 32 := broadcastInDim S2x1600000 ![] bcast_S_S2x1600000 main_c_11
  let main_v32 : IVec S2x1600000 1 := cmpi .slt main_arg1 main_v31
  let main_v33 : IVec S2x1600000 1 := andi main_v30 main_v32
  fn_part2 (F := F) main_v28 main_v33

def fn {F : FTy → Type} [FloatOps F] (main_arg0 : FVec F S50000x256 .f32) (main_arg1 : IVec S2x1600000 32) (main_arg2 : IVec S50000 32) (main_arg3 : FVec F S1600000 .f32) (main_arg4 : FVec F S256x128 .f32) (main_arg5 : FVec F S128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_v13 main_v16
-- ==== Kernel.lean ====
abbrev S50000x256 : Shape := ⟨2, ![50000, 256]⟩
abbrev S2x1600000 : Shape := ⟨2, ![2, 1600000]⟩
abbrev S50000 : Shape := ⟨1, ![50000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S50000x128 : Shape := ⟨2, ![50000, 128]⟩
abbrev S2000x256 : Shape := ⟨2, ![2000, 256]⟩
abbrev S2000x128 : Shape := ⟨2, ![2000, 128]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 169
  | .vmem => 20
  | .smem => 0
  | _ => 0

abbrev hbmTy0_0 (i : Nat) : BufTy := match i % 128 with
  | 0 => ⟨S50000x256, .f32⟩
  | 1 => ⟨S2x1600000, .i32⟩
  | 2 => ⟨S50000, .i32⟩
  | 3 => ⟨S1600000, .f32⟩
  | 4 => ⟨S256x128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S1600000, .f32⟩
  | 13 => ⟨S1600000, .f32⟩
  | 14 => ⟨S_, .f32⟩
  | 15 => ⟨S1600000, .f32⟩
  | 16 => ⟨S1600000, .f32⟩
  | 17 => ⟨S_, .f32⟩
  | 18 => ⟨S1600000, .f32⟩
  | 19 => ⟨S1600000, .f32⟩
  | 20 => ⟨S_, .f32⟩
  | 21 => ⟨S50000, .f32⟩
  | 22 => ⟨S1600000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S50000, .f32⟩
  | 49 => ⟨S50000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S50000x128, .f32⟩
  | 64 => ⟨S1600000x1, .i32⟩
  | 65 => ⟨S50000x128, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x64, .f32⟩
  | 81 => ⟨S1600000x1, .f32⟩
  | 82 => ⟨S1600000x64, .f32⟩
  | 83 => ⟨S1600000x64, .f32⟩
  | 84 => ⟨S_, .f32⟩
  | 85 => ⟨S50000x64, .f32⟩
  | 86 => ⟨S1600000x1, .i32⟩
  | 87 => ⟨S50000x64, .f32⟩
  | 88 => ⟨S50000x1, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x1, .i32⟩
  | 95 => ⟨S1x64, .i32⟩
  | 96 => ⟨S50000x64, .i32⟩
  | 97 => ⟨S50000x64, .i32⟩
  | 98 => ⟨S50000x64, .i1⟩
  | 99 => ⟨S50000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S50000x64, .f32⟩
  | 114 => ⟨S1600000x1, .i32⟩
  | 115 => ⟨S50000x64, .f32⟩
  | 116 => ⟨S50000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S50000x256, .f32⟩

abbrev hbmTy0_1 (i : Nat) : BufTy := match i % 128 with
  | 0 => ⟨S1600000x64, .f32⟩
  | 1 => ⟨S_, .f32⟩
  | 2 => ⟨S50000x64, .f32⟩
  | 3 => ⟨S1600000x1, .i32⟩
  | 4 => ⟨S50000x64, .f32⟩
  | 5 => ⟨S50000x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x1, .f32⟩
  | 16 => ⟨S1600000x64, .f32⟩
  | 17 => ⟨S1600000x64, .f32⟩
  | 18 => ⟨S_, .f32⟩
  | 19 => ⟨S50000x64, .f32⟩
  | 20 => ⟨S1600000x1, .i32⟩
  | 21 => ⟨S50000x64, .f32⟩
  | 22 => ⟨S50000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x1, .f32⟩
  | 33 => ⟨S1600000x64, .f32⟩
  | 34 => ⟨S1600000x64, .f32⟩
  | 35 => ⟨S_, .f32⟩
  | 36 => ⟨S50000x64, .f32⟩
  | 37 => ⟨S1600000x1, .i32⟩
  | 38 => ⟨S50000x64, .f32⟩
  | 39 => ⟨S50000x64, .f32⟩
  | 40 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_15 : Ref sig .tc := ⟨.hbm, 117, rfl⟩
abbrev main_v87 : Ref sig .tc := ⟨.hbm, 118, rfl⟩
abbrev main_v88 : Ref sig .tc := ⟨.hbm, 119, rfl⟩
abbrev main_c_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_17 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_18 : Ref sig .tc := ⟨.hbm, 134, rfl⟩
abbrev main_v101 : Ref sig .tc := ⟨.hbm, 135, rfl⟩
abbrev main_v102 : Ref sig .tc := ⟨.hbm, 136, rfl⟩
abbrev main_c_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_20 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_21 : Ref sig .tc := ⟨.hbm, 151, rfl⟩
abbrev main_v115 : Ref sig .tc := ⟨.hbm, 152, rfl⟩
abbrev main_v116 : Ref sig .tc := ⟨.hbm, 153, rfl⟩
abbrev main_c_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_23 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x256_S256x128_S2000x128_1_0_0_1_n_n_wf : DotDims.WF S2000x256 S256x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v128) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v129) S2000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S50000 : Shape := ⟨1, ![50000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S50000x128 : Shape := ⟨2, ![50000, 128]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 235
  | .vmem => 0
  | .smem => 0
  | _ => 0

abbrev hbmTy0_0 (i : Nat) : BufTy := match i % 128 with
  | 0 => ⟨S50000x256, .f32⟩
  | 1 => ⟨S2x1600000, .i32⟩
  | 2 => ⟨S50000, .i32⟩
  | 3 => ⟨S1600000, .f32⟩
  | 4 => ⟨S256x128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S1600000, .f32⟩
  | 13 => ⟨S1600000, .f32⟩
  | 14 => ⟨S_, .f32⟩
  | 15 => ⟨S1600000, .f32⟩
  | 16 => ⟨S1600000, .f32⟩
  | 17 => ⟨S_, .f32⟩
  | 18 => ⟨S1600000, .f32⟩
  | 19 => ⟨S1600000, .f32⟩
  | 20 => ⟨S50000x128, .f32⟩
  | 21 => ⟨S_, .f32⟩
  | 22 => ⟨S50000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S50000, .f32⟩
  | 32 => ⟨S50000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S50000x128, .f32⟩
  | 67 => ⟨S1600000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x64, .f32⟩
  | 81 => ⟨S_, .f32⟩
  | 82 => ⟨S50000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S50000, .f32⟩
  | 92 => ⟨S50000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x64, .f32⟩
  | 124 => ⟨S1600000x64, .f32⟩
  | 125 => ⟨S_, .f32⟩
  | 126 => ⟨S50000x64, .f32⟩
  | 127 => ⟨S1600000x1, .i32⟩
  | _ => ⟨S50000x256, .f32⟩

abbrev hbmTy0_1 (i : Nat) : BufTy := match i % 128 with
  | 0 => ⟨S50000x64, .f32⟩
  | 1 => ⟨S50000, .f32⟩
  | 2 => ⟨S50000x1, .f32⟩
  | 3 => ⟨S50000x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S_, .f32⟩
  | 10 => ⟨S50000, .f32⟩
  | 11 => ⟨S_, .f32⟩
  | 12 => ⟨S50000, .f32⟩
  | 13 => ⟨S50000, .f32⟩
  | 14 => ⟨S50000x1, .f32⟩
  | 15 => ⟨S50000x64, .f32⟩
  | 16 => ⟨S50000x64, .f32⟩
  | 17 => ⟨S50000x64, .f32⟩
  | 18 => ⟨S_, .f32⟩
  | 19 => ⟨S50000, .f32⟩
  | 20 => ⟨S50000x1, .f32⟩
  | 21 => ⟨S50000x64, .f32⟩
  | 22 => ⟨S50000x64, .f32⟩
  | 23 => ⟨S50000x1, .i32⟩
  | 24 => ⟨S1x64, .i32⟩
  | 25 => ⟨S50000x64, .i32⟩
  | 26 => ⟨S50000x64, .i32⟩
  | 27 => ⟨S50000x64, .i1⟩
  | 28 => ⟨S50000x64, .f32⟩
  | 29 => ⟨S1600000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S1600000x64, .f32⟩
  | 40 => ⟨S1600000x64, .f32⟩
  | 41 => ⟨S_, .f32⟩
  | 42 => ⟨S50000x64, .f32⟩
  | 43 => ⟨S1600000x1, .i32⟩
  | 44 => ⟨S50000x64, .f32⟩
  | 45 => ⟨S50000x64, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x64, .f32⟩
  | 57 => ⟨S1600000x64, .f32⟩
  | 58 => ⟨S_, .f32⟩
  | 59 => ⟨S50000x64, .f32⟩
  | 60 => ⟨S1600000x1, .i32⟩
  | 61 => ⟨S50000x64, .f32⟩
  | 62 => ⟨S50000x64, .f32⟩
  | 63 => ⟨S1600000x1, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x64, .f32⟩
  | 74 => ⟨S1600000x64, .f32⟩
  | 75 => ⟨S_, .f32⟩
  | 76 => ⟨S50000x64, .f32⟩
  | 77 => ⟨S1600000x1, .i32⟩
  | 78 => ⟨S50000x64, .f32⟩
  | 79 => ⟨S50000x64, .f32⟩
  | 80 => ⟨S1600000x1, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1600000x64, .f32⟩
  | 91 => ⟨S1600000x64, .f32⟩
  | 92 => ⟨S_, .f32⟩
  | 93 => ⟨S50000x64, .f32⟩
  | 94 => ⟨S1600000x1, .i32⟩
  | 95 => ⟨S50000x64, .f32⟩
  | 96 => ⟨S50000x64, .f32⟩
  | 97 => ⟨S50000x64, .f32⟩
  | 98 => ⟨S_, .f32⟩
  | 99 => ⟨S50000, .f32⟩
  | 100 => ⟨S50000x1, .f32⟩
  | 101 => ⟨S50000x1, .f32⟩
  | 102 => ⟨S_, .f32⟩
  | 103 => ⟨S50000x1, .f32⟩
  | 104 => ⟨S50000x1, .f32⟩
  | 105 => ⟨S50000x64, .f32⟩
  | 106 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_17 : Ref sig .tc := ⟨.hbm, 114, rfl⟩
abbrev main_v85 : Ref sig .tc := ⟨.hbm, 115, rfl⟩
abbrev main_v86 : Ref sig .tc := ⟨.hbm, 116, rfl⟩
abbrev main_c_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_20 : Ref sig .tc := ⟨.hbm, 137, rfl⟩
abbrev main_v105 : Ref sig .tc := ⟨.hbm, 138, rfl⟩
abbrev main_cst_21 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_22 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_v116 : Ref sig .tc := ⟨.hbm, 156, rfl⟩
abbrev main_v117 : Ref sig .tc := ⟨.hbm, 157, rfl⟩
abbrev main_c_23 : Ref sig .tc := ⟨.hbm, 158, rfl⟩
abbrev main_v118 : Ref sig .tc := ⟨.hbm, 159, rfl⟩
abbrev main_v119 : Ref sig .tc := ⟨.hbm, 160, rfl⟩
abbrev main_c_24 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_25 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_26 : Ref sig .tc := ⟨.hbm, 175, rfl⟩
abbrev main_v132 : Ref sig .tc := ⟨.hbm, 176, rfl⟩
abbrev main_v133 : Ref sig .tc := ⟨.hbm, 177, rfl⟩
abbrev main_c_27 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_28 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_29 : Ref sig .tc := ⟨.hbm, 192, rfl⟩
abbrev main_v146 : Ref sig .tc := ⟨.hbm, 193, rfl⟩
abbrev main_v147 : Ref sig .tc := ⟨.hbm, 194, rfl⟩
abbrev main_c_30 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_31 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_c_32 : Ref sig .tc := ⟨.hbm, 209, rfl⟩
abbrev main_v160 : Ref sig .tc := ⟨.hbm, 210, rfl⟩
abbrev main_v161 : Ref sig .tc := ⟨.hbm, 211, rfl⟩
abbrev main_c_33 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_34 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_call2_v0 : Ref sig .tc := ⟨.hbm, 225, rfl⟩
abbrev main_call2_cst : Ref sig .tc := ⟨.hbm, 226, rfl⟩
abbrev main_call2_v1 : Ref sig .tc := ⟨.hbm, 227, rfl⟩
abbrev main_call2_v2 : Ref sig .tc := ⟨.hbm, 228, rfl⟩
abbrev main_v173 : Ref sig .tc := ⟨.hbm, 229, rfl⟩
abbrev main_cst_35 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  dot_S50000x256_S256x128_S50000x128_1_0_0_1_n_n_wf : DotDims.WF S50000x256 S256x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.KRun.lean ====
/-
  The idealized kernel's run with its two results named.
  The program is nine segments: five stretches of host operations and four grid regions between them. The buffer contents
  at each segment boundary are the fold W0 … W9 through the program (a stretch applies its operations in order, a region
  replaces its arrays by what its write-backs leave). The run is the same launch over the same segments as the frame's;
  what is read off the last boundary here is every buffer the two results and the eight arguments live in, so both result
  buffers end at W9's contents and the arguments end as launched.
-/
import proofs.«160263_j50646254354789_1_alg».proof.Proof.Gen.KernelIdeal.Frame
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Named

open Cert.KernelIdeal Cert.KernelIdeal.Gen

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with both result buffers at the last boundary's contents
    and the arguments as launched. -/
theorem run : θ_run defs (onTc (τ := τ) (main (F := F))) ⟨m, fun _ => 0, ρ⟩ (fun r => ∀ c : Dev nD,
      r.2.mem ((c.tc : Thread nD τ).loc main_v71) = W9 m ρ c (Proc.devRef .tc main_v71)
      ∧ r.2.mem ((c.tc : Thread nD τ).loc main_v129) = W9 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v71 (by decide)),
       h c _ (mem_uc main_v129 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Named

end
-- ==== Proof.Stages.lean ====
/-
  The host-side stages of the graph convolution, as whole-array functions of the argument arrays.
  With src = row 0 and dst = row 1 of the [2, E] edge array (E = 1 600 000, N = 50 000 nodes) and ew = 1 / (1 + exp(−w)):
    wrap v      the index column with 'add N where negative' applied (what a gather by v uses);
    col v       the plain index column (what a segment sum into v uses);
    degK, degR  the in-degree 1 + Σ_{e : dst e = n} ew e, spelt 'sum into zeros, then add one' and 'sum into ones at the
                wrapped column';
    edgeNorm dinv   the edge weight dinv[src] · ew · dinv[dst];
    agg128 / agg64 dinv h   (n, c) ↦ Σ_{e : dst e = n} edgeNorm e · h(src e, c)  +  dinv(n)² · h(n, c);
    oneHot y    the [N, 64] indicator of the labels;
    lpStep L    (n, c) ↦ Σ_{e : src e = n} ew e · L(dst e, c)  +  L(n, c);   labels4 = four such steps from oneHot y.
  Each is written exactly as the programs' operations compose, so that a run's composed term is such a stage by unfolding.
-/
import proofs.«160263_j50646254354789_1_alg».proof.Proof.Gen.KernelIdeal
import Idealize.ShloMosaic.Lib.StableHlo
import Idealize.ShloMosaic.PureOps.Ideal

noncomputable section

open Idealize.ShloMosaic Idealize.ShloMosaic.TcCoe Idealize.SL.Sem

namespace Cert.KernelIdeal.Stages

open Cert.KernelIdeal Cert.KernelIdeal.Gen

/-- Row 0 of the edge array: the source node of each edge. -/
def src (x1 : IVec S2x1600000 32) : IVec S1600000 32 :=
  shapeCast _ (extractStridedSlice S1x1600000 ![0, 0] x1 slices_S2x1600000_S1x1600000_0_0) shapeCasts_S1x1600000_S1600000

/-- Row 1 of the edge array: the destination node of each edge. -/
def dst (x1 : IVec S2x1600000 32) : IVec S1600000 32 :=
  shapeCast _ (extractStridedSlice S1x1600000 ![1, 0] x1 slices_S2x1600000_S1x1600000_1_0) shapeCasts_S1x1600000_S1600000

/-- The edge weights 1 / (1 + exp(−w)). -/
def ew (x3 : FVec Ideal S1600000 .f32) : FVec Ideal S1600000 .f32 :=
  Host.divf (F := Ideal) (broadcastInDim S1600000 ![] bcast_S_S1600000 (constant (F := Ideal) S_ .f32 0x3F800000#32))
    (addf (broadcastInDim S1600000 ![] bcast_S_S1600000 (constant (F := Ideal) S_ .f32 0x3F800000#32)) (Host.exp (F := Ideal) (Host.negf (F := Ideal) x3)))

/-- The index column of v with N added where v is negative. -/
def wrap (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- The index column of v as it is. -/
def col (v : IVec S1600000 32) : IVec S1600000x1 32 :=
  broadcastInDim S1600000x1 ![0] bcast_S1600000_S1600000x1_0 v

/-- The in-degree, summed into zeros and one added. -/
def degK (x1 : IVec S2x1600000 32) (x3 : FVec Ideal S1600000 .f32) : FVec Ideal S50000 .f32 :=
  addf (Host.scatterAdd (F := Ideal) scatter_S50000_S1600000x1_S1600000_n_0_0_1
      (broadcastInDim S50000 ![] bcast_S_S50000 (constant (F := Ideal) S_ .f32 0x00000000#32)) (col (dst x1)) (ew x3))
    (broadcastInDim S50000 ![] bcast_S_S50000 (constant (F := Ideal) S_ .f32 0x3F800000#32))

/-- The in-degree, summed into ones at the wrapped column. -/
def degR (x1 : IVec S2x1600000 32) (x3 : FVec Ideal S1600000 .f32) : FVec Ideal S50000 .f32 :=
  Host.scatterAdd (F := Ideal) scatter_S50000_S1600000x1_S1600000_n_0_0_1
    (broadcastInDim S50000 ![] bcast_S_S50000 (constant (F := Ideal) S_ .f32 0x3F800000#32)) (wrap (dst x1)) (ew x3)

/-- The edge weight dinv[src] · ew · dinv[dst]. -/
def edgeNorm (dinv : FVec Ideal S50000 .f32) (x1 : IVec S2x1600000 32) (x3 : FVec Ideal S1600000 .f32) : FVec Ideal S1600000 .f32 :=
  mulf (mulf (Host.gather gather_S50000_S1600000x1_S1600000_n_0_n_n_0_1_1 dinv (wrap (src x1))) (ew x3))
    (Host.gather gather_S50000_S1600000x1_S1600000_n_0_n_n_0_1_1 dinv (wrap (dst x1)))

/-- One aggregation over the edges plus the self term, width 128. -/
def agg128 (dinv : FVec Ideal S50000 .f32) (x1 : IVec S2x1600000 32) (x3 : FVec Ideal S1600000 .f32) (h : FVec Ideal S50000x128 .f32) : FVec Ideal S50000x128 .f32 :=
  addf (Host.scatterAdd (F := Ideal) scatter_S50000x128_S1600000x1_S1600000x128_1_0_0_1
      (broadcastInDim S50000x128 ![] bcast_S_S50000x128 (constant (F := Ideal) S_ .f32 0x00000000#32)) (col (dst x1))
      (mulf (broadcastInDim S1600000x128 ![0, 1] bcast_S1600000x1_S1600000x128_0_1 (broadcastInDim S1600000x1 ![0] bcast_S1600000_S1600000x1_0 (edgeNorm dinv x1 x3)))
        (Host.gather gather_S50000x128_S1600000x1_S1600000x128_1_0_n_n_0_1_1128 h (wrap (src x1)))))
    (mulf (broadcastInDim S50000x128 ![0, 1] bcast_S50000x1_S50000x128_0_1 (broadcastInDim S50000x1 ![0] bcast_S50000_S50000x1_0 (mulf dinv dinv))) h)

/-- One aggregation over the edges plus the self term, width 64. -/
def agg64 (dinv : FVec Ideal S50000 .f32) (x1 : IVec S2x1600000 32) (x3 : FVec Ideal S1600000 .f32) (h : FVec Ideal S50000x64 .f32) : FVec Ideal S50000x64 .f32 :=
  addf (Host.scatterAdd (F := Ideal) scatter_S50000x64_S1600000x1_S1600000x64_1_0_0_1
      (broadcastInDim S50000x64 ![] bcast_S_S50000x64 (constant (F := Ideal) S_ .f32 0x00000000#32)) (col (dst x1))
      (mulf (broadcastInDim S1600000x64 ![0, 1] bcast_S1600000x1_S1600000x64_0_1 (broadcastInDim S1600000x1 ![0] bcast_S1600000_S1600000x1_0 (edgeNorm dinv x1 x3)))
        (Host.gather gather_S50000x64_S1600000x1_S1600000x64_1_0_n_n_0_1_164 h (wrap (src x1)))))
    (mulf (broadcastInDim S50000x64 ![0, 1] bcast_S50000x1_S50000x64_0_1 (broadcastInDim S50000x1 ![0] bcast_S50000_S50000x1_0 (mulf dinv dinv))) h)

/-- The indicator array of the labels. -/
def oneHot (x2 : IVec S50000 32) : FVec Ideal S50000x64 .f32 :=
  uitofp (F := Ideal) .f32 (cmpi .eq (broadcastInDim S50000x64 ![0, 1] bcast_S50000x1_S50000x64_0_1 (broadcastInDim S50000x1 ![0] bcast_S50000_S50000x1_0 x2))
    (broadcastInDim S50000x64 ![0, 1] bcast_S1x64_S50000x64_0_1 (iotaInDim S1x64 32 1)))

/-- One label-propagation step. -/
def lpStep (x1 : IVec S2x1600000 32) (x3 : FVec Ideal S1600000 .f32) (l : FVec Ideal S50000x64 .f32) : FVec Ideal S50000x64 .f32 :=
  addf (Host.scatterAdd (F := Ideal) scatter_S50000x64_S1600000x1_S1600000x64_1_0_0_1
      (broadcastInDim S50000x64 ![] bcast_S_S50000x64 (constant (F := Ideal) S_ .f32 0x00000000#32)) (col (src x1))
      (mulf (broadcastInDim S1600000x64 ![0, 1] bcast_S1600000x1_S1600000x64_0_1 (broadcastInDim S1600000x1 ![0] bcast_S1600000_S1600000x1_0 (ew x3)))
        (Host.gather gather_S50000x64_S1600000x1_S1600000x64_1_0_n_n_0_1_164 l (wrap (dst x1))))) l

/-- Four label-propagation steps from the indicator array. -/
def labels4 (x1 : IVec S2x1600000 32) (x2 : IVec S50000 32) (x3 : FVec Ideal S1600000 .f32) : FVec Ideal S50000x64 .f32 :=
  lpStep x1 x3 (lpStep x1 x3 (lpStep x1 x3 (lpStep x1 x3 (oneHot x2))))

end Cert.KernelIdeal.Stages

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«160263_j50646254354789_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibColSum.lean ====
/-
  Over the library only, at the ideal instance: a sum down the columns of an [a, b] matrix. A multi_reduction <add>
  along axis 0 into [b] reads, at column c, the sum over k < a of the entries (k, c) (the accumulator being the zero
  word); the lifted index over c with k inserted on axis 0 is (k, c).
-/
import Idealize.ShloMosaic.PureOps.Ideal.Laws
import Idealize.ShloMosaic.Lib.ValueIdx
import Idealize.ShloMosaic.Lib.Pipeline.Value

noncomputable section

open scoped BigOperators

namespace Cert.LibColSum

open Idealize.ShloMosaic Idealize.ShloMosaic.ValueIdx

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A [b] vector shape-cast to a [1, b] row reads, at (0, c), the vector's entry c. -/
theorem row_of_vec {b : ℕ} {α : Type} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) :=
  (shapeCast_addUnit_apply ![b] v h (ix2 (0 : Fin 1) c)).trans
    (congrArg v (funext fun d => by match d with | ⟨0, _⟩ => rfl))

end Cert.LibColSum

end
-- ==== Proof.LibReluDense.lean ====
/-
  A bias-and-positive-part stage and the plain matrix product it feeds, on the extended reals, in the two spellings that
  lower from "relu(x + b) @ w".
  For an M×K array x, a bias given as a one-row array b (shape [1, K]) and a K×N weight w:
      dense x w      : (a, c) ↦ Σ_{k<K} x(a,k) · w(k,c)
      biasRelu x b   : (a, k) ↦ max (x(a,k) + b(0,k)) 0
      reluDense x b w = dense (biasRelu x b) w : (a, c) ↦ Σ_{k<K} max (x(a,k) + b(0,k)) 0 · w(k,c) .
  * dense_of_matmul / dense_of_dotGeneral: a matrix unit's product over the plain dimension numbers into a zero accumulator,
    the operands first narrowed to a 16-bit float format (the identity on the extended reals) and the weight shape-cast to
    its own shape, and the host's product over the same dimension numbers, are both dense.
  * biasRelu_of_broadcastTo / biasRelu_of_broadcastInDim: the operands shape-cast to their own shapes, the row broadcast over
    the rows and a maximum with a splat of the scalar word 0; and the row broadcast along the axes [0, 1] with a maximum
    against a rank-0 constant 0 broadcast along no axis, are both biasRelu.
  * reluDense_of_matmul / reluDense_of_dotGeneral: the two together.
  * dense_rows, biasRelu_rows, reluDense_rows: a row of the result depends on x only through the same row, so a block of
    rows of x gives that block of rows of the result (for kernels that tile the rows over a grid).
  * dense_block, biasRelu_block, reluDense_block: the same with the two positions given as indices.
  * row_reshape_eq_broadcast: a [K] vector reshaped to a [1, K] row is the vector broadcast along axis 1.
  Over the library and the plain-product, row-broadcast and small-shape lemmas only; every extent is a variable.
-/
import Idealize.ShloMosaic.PureOps.Ideal.Laws
import Idealize.ShloMosaic.Lib.ValueIdx
import Idealize.ShloMosaic.Lib.Pipeline.Value
import proofs.«160263_j50646254354789_1_alg».proof.Proof.LibPlainDot
import proofs.«160263_j50646254354789_1_alg».proof.Proof.LibDenseStage
import proofs.«160263_j50646254354789_1_alg».proof.Proof.LibHostBroadcast
import proofs.«160263_j50646254354789_1_alg».proof.Proof.LibColSum

noncomputable section

namespace Cert.LibReluDense

open Idealize.ShloMosaic Idealize.ShloMosaic.ValueIdx

variable (M K N : Nat)

/-! ## The plain product -/

/-- The product of an M×K array with a K×N array. -/
def dense (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem dense_apply (x : FVec Ideal ⟨2, ![M, K]⟩ .f32) (w : FVec Ideal ⟨2, ![K, N]⟩ .f32) (a : Fin M) (c : Fin N) :
    dense M K N x w (ix2 a c) = ∑ k : Fin K, x (ix2 a k) * w (ix2 k c) := rfl

/-- Row a' of a block's product is row a of the whole's, when the block's row a' is the whole's row a. -/
theorem dense_rows (M' : Nat) (X : FVec Ideal ⟨2, ![M, K]⟩ .f32) (x : FVec Ideal ⟨2, ![M', K]⟩ .f32)
    (w : FVec Ideal ⟨2, ![K, N]⟩ .f32) (a : Fin M) (a' : Fin M') (h : ∀ k : Fin K, x (ix2 a' k) = X (ix2 a k)) (c : Fin N) :
    dense M' K N x w (ix2 a' c) = dense M K N X w (ix2 a c) := by
  rw [dense_apply, dense_apply]
  exact Finset.sum_congr rfl fun k _ => by rw [h k]

/-- The matrix unit's spelling of the product. -/
theorem dense_of_matmul (x : FVec Ideal ⟨2, ![M, K]⟩ .f32) (w : FVec Ideal ⟨2, ![K, N]⟩ .f32)
    (h1 : FTy.bf16.bits < FTy.f32.bits) (h2 : FTy.bf16.bits < FTy.f32.bits)
    (hw : (⟨2, ![K, N]⟩ : Shape).ShapeCasts ⟨2, ![K, N]⟩) :
    matmul (F := Ideal) (DotDims.plain M K N) none (truncf .bf16 x h1) (truncf .bf16 (shapeCast ⟨2, ![K, N]⟩ w hw) h2)
        (constant ⟨2, ![M, N]⟩ .f32 0x00000000#32)
      = dense M K N x w := by
  funext i
  obtain ⟨a, c, rfl⟩ : ∃ (a : Fin M) (c : Fin N), i = ix2 a c := ⟨i 0, i 1, eq_ix2 i⟩
  rw [Cert.LibPlainDot.matmul_plain, shapeCast_self]
  rfl

/-- The host's spelling of the product. -/
theorem dense_of_dotGeneral (x : FVec Ideal ⟨2, ![M, K]⟩ .f32) (w : FVec Ideal ⟨2, ![K, N]⟩ .f32) :
    Host.dotGeneral (F := Ideal) (DotDims.plain M K N) none x w = dense M K N x w := by
  funext i
  obtain ⟨a, c, rfl⟩ : ∃ (a : Fin M) (c : Fin N), i = ix2 a c := ⟨i 0, i 1, eq_ix2 i⟩
  rw [Cert.LibPlainDot.dotGeneral_plain]
  rfl

/-! ## The bias row and the positive part -/

/-- x plus the bias row, cut off below at 0. -/
def biasRelu (x : FVec Ideal ⟨2, ![M, K]⟩ .f32) (b : FVec Ideal ⟨2, ![1, K]⟩ .f32) : FVec Ideal ⟨2, ![M, K]⟩ .f32 :=
  fun i => max (x i + b (ix2 (0 : Fin 1) (i 1))) 0

theorem biasRelu_apply (x : FVec Ideal ⟨2, ![M, K]⟩ .f32) (b : FVec Ideal ⟨2, ![1, K]⟩ .f32) (a : Fin M) (k : Fin K) :
    biasRelu M K x b (ix2 a k) = max (x (ix2 a k) + b (ix2 (0 : Fin 1) k)) 0 := rfl

/-- An entry of the stage depends on x only through the same entry. -/
theorem biasRelu_rows (M' : Nat) (X : FVec Ideal ⟨2, ![M, K]⟩ .f32) (x : FVec Ideal ⟨2, ![M', K]⟩ .f32)
    (b : FVec Ideal ⟨2, ![1, K]⟩ .f32) (a : Fin M) (a' : Fin M') (k : Fin K) (h : x (ix2 a' k) = X (ix2 a k)) :
    biasRelu M' K x b (ix2 a' k) = biasRelu M K X b (ix2 a k) := by
  rw [biasRelu_apply, biasRelu_apply, h]

/-- The kernel's spelling: both operands shape-cast to their own shapes, the row broadcast over the rows, a maximum with a
    splat of the scalar word 0. -/
theorem biasRelu_of_broadcastTo (x : FVec Ideal ⟨2, ![M, K]⟩ .f32) (b : FVec Ideal ⟨2, ![1, K]⟩ .f32)
    (hx : (⟨2, ![M, K]⟩ : Shape).ShapeCasts ⟨2, ![M, K]⟩) (hc : (⟨2, ![1, K]⟩ : Shape).ShapeCasts ⟨2, ![1, K]⟩)
    (hb : (⟨2, ![1, K]⟩ : Shape).Broadcasts ⟨2, ![M, K]⟩) :
    maximumf (addf (shapeCast ⟨2, ![M, K]⟩ x hx) (broadcastTo ⟨2, ![M, K]⟩ (shapeCast ⟨2, ![1, K]⟩ b hc) hb))
        (broadcast ⟨2, ![M, K]⟩ (Scalar.ofBits (F := Ideal) .f32 0x00000000#32))
      = biasRelu M K x b := by
  funext i
  obtain ⟨a, k, rfl⟩ : ∃ (a : Fin M) (k : Fin K), i = ix2 a k := ⟨i 0, i 1, eq_ix2 i⟩
  rw [maximumf_apply, addf_apply, broadcast_apply, shapeCast_self, shapeCast_self, Cert.LibDenseStage.row_broadcastTo,
    biasRelu_apply]
  exact congrArg (max _) Ideal.ofBits_zero_f32

/-- The host's spelling: the row broadcast along the axes [0, 1], a maximum with a rank-0 constant 0 broadcast along no axis. -/
theorem biasRelu_of_broadcastInDim (x : FVec Ideal ⟨2, ![M, K]⟩ .f32) (b : FVec Ideal ⟨2, ![1, K]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    maximumf (addf x (broadcastInDim ⟨2, ![M, K]⟩ ![0, 1] hb b))
        (broadcastInDim ⟨2, ![M, K]⟩ ![] h0 (constant (F := Ideal) ⟨0, ![]⟩ .f32 0x00000000#32))
      = biasRelu M K x b := by
  funext i
  obtain ⟨a, k, rfl⟩ : ∃ (a : Fin M) (k : Fin K), i = ix2 a k := ⟨i 0, i 1, eq_ix2 i⟩
  rw [maximumf_apply, addf_apply, Cert.LibDenseStage.row_broadcastInDim, biasRelu_apply,
    broadcastInDim_apply (![] : Fin 0 → Fin 2) h0 _ (ix2 a k) ix0 (fun ax => ax.elim0), constant_apply]
  exact congrArg (max _) Ideal.ofBits_zero_f32

/-! ## The two together -/

/-- The positive part of x plus the bias row, times w. -/
def reluDense (x : FVec Ideal ⟨2, ![M, K]⟩ .f32) (b : FVec Ideal ⟨2, ![1, K]⟩ .f32) (w : FVec Ideal ⟨2, ![K, N]⟩ .f32) :
    FVec Ideal ⟨2, ![M, N]⟩ .f32 :=
  dense M K N (biasRelu M K x b) w

/-- Row a' of a block's result is row a of the whole's, when the block's row a' is the whole's row a. -/
theorem reluDense_rows (M' : Nat) (X : FVec Ideal ⟨2, ![M, K]⟩ .f32) (x : FVec Ideal ⟨2, ![M', K]⟩ .f32)
    (b : FVec Ideal ⟨2, ![1, K]⟩ .f32) (w : FVec Ideal ⟨2, ![K, N]⟩ .f32) (a : Fin M) (a' : Fin M')
    (h : ∀ k : Fin K, x (ix2 a' k) = X (ix2 a k)) (c : Fin N) :
    reluDense M' K N x b w (ix2 a' c) = reluDense M K N X b w (ix2 a c) :=
  dense_rows M K N M' _ _ w a a' (fun k => biasRelu_rows M K M' X x b a a' k (h k)) c

/-- The matrix unit's spelling. -/
theorem reluDense_of_matmul (x : FVec Ideal ⟨2, ![M, K]⟩ .f32) (b : FVec Ideal ⟨2, ![1, K]⟩ .f32) (w : FVec Ideal ⟨2, ![K, N]⟩ .f32)
    (h1 : FTy.bf16.bits < FTy.f32.bits) (h2 : FTy.bf16.bits < FTy.f32.bits)
    (hx : (⟨2, ![M, K]⟩ : Shape).ShapeCasts ⟨2, ![M, K]⟩) (hc : (⟨2, ![1, K]⟩ : Shape).ShapeCasts ⟨2, ![1, K]⟩)
    (hb : (⟨2, ![1, K]⟩ : Shape).Broadcasts ⟨2, ![M, K]⟩) (hw : (⟨2, ![K, N]⟩ : Shape).ShapeCasts ⟨2, ![K, N]⟩) :
    matmul (F := Ideal) (DotDims.plain M K N) none
        (truncf .bf16 (maximumf (addf (shapeCast ⟨2, ![M, K]⟩ x hx) (broadcastTo ⟨2, ![M, K]⟩ (shapeCast ⟨2, ![1, K]⟩ b hc) hb))
          (broadcast ⟨2, ![M, K]⟩ (Scalar.ofBits (F := Ideal) .f32 0x00000000#32))) h1)
        (truncf .bf16 (shapeCast ⟨2, ![K, N]⟩ w hw) h2) (constant ⟨2, ![M, N]⟩ .f32 0x00000000#32)
      = reluDense M K N x b w := by
  rw [biasRelu_of_broadcastTo]
  exact dense_of_matmul M K N _ w h1 h2 hw

/-- The host's spelling. -/
theorem reluDense_of_dotGeneral (x : FVec Ideal ⟨2, ![M, K]⟩ .f32) (b : FVec Ideal ⟨2, ![1, K]⟩ .f32) (w : FVec Ideal ⟨2, ![K, N]⟩ .f32)
    (hb : (⟨2, ![1, K]⟩ : Shape).BroadcastsInDim ⟨2, ![M, K]⟩ (![0, 1] : Fin 2 → Fin 2))
    (h0 : (⟨0, ![]⟩ : Shape).BroadcastsInDim ⟨2, ![M, K]⟩ (![] : Fin 0 → Fin 2)) :
    Host.dotGeneral (F := Ideal) (DotDims.plain M K N) none
        (maximumf (addf x (broadcastInDim ⟨2, ![M, K]⟩ ![0, 1] hb b))
          (broadcastInDim ⟨2, ![M, K]⟩ ![] h0 (constant (F := Ideal) ⟨0, ![]⟩ .f32 0x00000000#32))) w
      = reluDense M K N x b w := by
  rw [biasRelu_of_broadcastInDim]
  exact dense_of_dotGeneral M K N _ w

/-! ## A block of rows, at an index

The same three facts with the two positions given as indices: j in a block of M' rows, i in the whole array, in the same
column, the block's row of j being the whole's row of i. -/

theorem dense_block (M' : Nat) (X : FVec Ideal ⟨2, ![M, K]⟩ .f32) (x : FVec Ideal ⟨2, ![M', K]⟩ .f32)
    (w : FVec Ideal ⟨2, ![K, N]⟩ .f32) (i : (⟨2, ![M, N]⟩ : Shape).Idx) (j : (⟨2, ![M', N]⟩ : Shape).Idx)
    (h : ∀ k : Fin K, x (ix2 (j 0) k) = X (ix2 (i 0) k)) (hc : (j 1).val = (i 1).val) :
    dense M' K N x w j = dense M K N X w i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact dense_rows M K N M' X x w a a' h c'

theorem biasRelu_block (M' : Nat) (X : FVec Ideal ⟨2, ![M, K]⟩ .f32) (x : FVec Ideal ⟨2, ![M', K]⟩ .f32)
    (b : FVec Ideal ⟨2, ![1, K]⟩ .f32) (i : (⟨2, ![M, K]⟩ : Shape).Idx) (j : (⟨2, ![M', K]⟩ : Shape).Idx)
    (h : x j = X i) (hc : (j 1).val = (i 1).val) :
    biasRelu M' K x b j = biasRelu M K X b i := by
  obtain ⟨a', c', rfl⟩ : ∃ (a' : Fin M') (c' : Fin K), j = ix2 a' c' := ⟨j 0, j 1, eq_ix2 j⟩
  obtain ⟨a, c, rfl⟩ : ∃ (a : Fin M) (c : Fin K), i = ix2 a c := ⟨i 0, i 1, eq_ix2 i⟩
  obtain rfl : c' = c := Fin.ext hc
  exact biasRelu_rows M K M' X x b a a' c' h

theorem reluDense_block (M' : Nat) (X : FVec Ideal ⟨2, ![M, K]⟩ .f32) (x : FVec Ideal ⟨2, ![M', K]⟩ .f32)
    (b : FVec Ideal ⟨2, ![1, K]⟩ .f32) (w : FVec Ideal ⟨2, ![K, N]⟩ .f32) (i : (⟨2, ![M, N]⟩ : Shape).Idx)
    (j : (⟨2, ![M', N]⟩ : Shape).Idx) (h : ∀ k : Fin K, x (ix2 (j 0) k) = X (ix2 (i 0) k)) (hc : (j 1).val = (i 1).val) :
    reluDense M' K N x b w j = reluDense M K N X b w i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact reluDense_rows M K N M' X x b w a a' h c'

/-! ## The bias row from a vector -/

/-- A [K] vector reshaped to a [1, K] row is the vector broadcast along axis 1. -/
theorem row_reshape_eq_broadcast {α : Type} (v : (⟨1, ![K]⟩ : Shape).Idx → α) (h : (⟨1, ![K]⟩ : Shape).ShapeCasts ⟨2, ![1, K]⟩)
    (h' : (⟨1, ![K]⟩ : Shape).BroadcastsInDim ⟨2, ![1, K]⟩ (![1] : Fin 1 → Fin 2)) :
    shapeCast ⟨2, ![1, K]⟩ v h = broadcastInDim ⟨2, ![1, K]⟩ ![1] h' v := by
  funext i
  obtain ⟨u, c, rfl⟩ : ∃ (u : Fin 1) (c : Fin K), i = ix2 u c := ⟨i 0, i 1, eq_ix2 i⟩
  obtain rfl : u = 0 := Subsingleton.elim _ _
  rw [Cert.LibColSum.row_of_vec, Cert.LibHostBroadcast.vec_to_row]

end Cert.LibReluDense

end
-- ==== Proof.Region0.lean ====
/-
  The first projection, block by block.
  The grid has 25 points; point t stages rows 2000·t … 2000·t + 1999 of the [50000, 256] input, the whole [256, 128]
  weight, and writes rows 2000·t … 2000·t + 1999 of the [50000, 128] output. A row of a matrix product depends on the left
  operand only through the same row, so what point t writes back is block t of the product of the whole arrays, and the 25
  blocks tile the output: after the region the output array is the plain product
      (a, c) ↦ Σ_{k<256} x(a, k) · w(k, c)
  of the arrays the region found (the operands' narrowing to a 16-bit format is the identity on the extended reals).
-/
import proofs.«160263_j50646254354789_1_alg».proof.Proof.Gen.KernelIdeal.Frame
import proofs.«160263_j50646254354789_1_alg».proof.Proof.LibReluDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks0

open Cert.KernelIdeal Cert.KernelIdeal.Gen

open Cert.LibReluDense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S2000x256 .f32) (x1 : Vec Ideal S256x128 .f32) :
    k0_pay1 x0 x1 = dense 2000 256 128 x0 x1 := by
  unfold k0_pay1
  funext i
  exact Cert.LibPlainDot.matmul_plain 2000 256 128 none _ _ i

/-- The printed index maps over the grid: the input and the output move together down the rows, the weight stays. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some point's. -/
theorem idx_onto : ∀ q : Fin 25, ∃ t : Fin cfg0.N, win0_2.index t = ![q.val, 0] :=
  (by decide +kernel : ∀ q : Fin 25, ∃ t : Fin grid0.N, win0_2.index t = ![q.val, 0])

/-- The input block at point t, entry (r, k), is the array's entry (2000·(block row) + r, k). -/
theorem iblk_x (c : Dev nD) (t : Fin cfg0.N) (y : S2000x256.Idx) (i : S50000x256.Idx)
    (h0 : (i 0).val = win0_2.index t (0 : Fin 2) * 2000 + (y 0).val) (h1 : (i 1).val = (y 1).val) :
    (iblk0 V c 0 t : Vec Ideal S2000x256 .f32) y = (V c main_arg0 : S50000x256.Idx → Elt Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The weight's block at every point is the whole weight. -/
theorem iblk_w (c : Dev nD) (t : Fin cfg0.N) :
    (iblk0 V c 1 t : Vec Ideal S256x128 .f32) = (V c main_arg4 : S256x128.Idx → Elt Ideal .f32) := by
  obtain ⟨-, -, e2, e3, -⟩ := idx_facts t
  funext y
  unfold iblk0
  rw [View.read_apply]
  show V c main_arg4 _ = V c main_arg4 _
  congr 1
  funext a
  apply Fin.ext
  match a with
  | ⟨0, _⟩ => show win0_1.index t (0 : Fin 2) * 256 + 1 * (y 0).val = (y 0).val; rw [e2]; omega
  | ⟨1, _⟩ => show win0_1.index t (1 : Fin 2) * 128 + 1 * (y 1).val = (y 1).val; rw [e3]; omega

/-- What point t writes back is block t of the product of the whole arrays. -/
theorem flushed_eq (c : Dev nD) (t : Fin cfg0.N) :
    (dat0 V c).flushed 2 t = ((cfg0.win 2).blk t).view.read (Elt Ideal)
      (dense 50000 256 128 (V c main_arg0) (V c main_arg4)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  rw [pay_eq, iblk_w]
  obtain ⟨-, -, -, -, e4, -⟩ := idx_facts t
  funext j
  rw [View.read_apply]
  refine dense_block 50000 256 128 2000 (V c main_arg0) (iblk0 V c 0 t) (V c main_arg4) _ j (fun k => ?_) ?_
  · refine iblk_x V c t _ _ ?_ rfl
    show win0_2.index t (0 : Fin 2) * 2000 + 1 * (j 0).val = _
    show _ = win0_2.index t (0 : Fin 2) * 2000 + (j 0).val
    omega
  · show (j 1).val = win0_2.index t (1 : Fin 2) * 128 + 1 * (j 1).val
    rw [e4]; omega

/-- An index of the output is in point t's block iff its row is among the block's 2000 rows. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- The 25 row blocks tile the output. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array is the product of the arrays the region found. -/
theorem final (c : Dev nD) :
    (dat0 V c).arrAt 2 cfg0.N = dense 50000 256 128 (V c main_arg0) (V c main_arg4) :=
  (dat0 V c).arrAt_eq_of_cover 2 _ (fun t _ => flushed_eq V c t) cover

end Cert.KernelIdeal.Blocks0

end
-- ==== Proof.Region1.lean ====
/-
  The second projection, block by block.
  Point t of the 25 stages rows 2000·t … 2000·t + 1999 of the aggregated [50000, 128] features, the whole [1, 128] bias row
  and the whole [128, 64] weight, and writes the same rows of the [50000, 64] output: the positive part of (features + bias)
  times the weight. A row of the result depends on the features only through the same row, so what point t writes back is
  block t of the stage applied to the whole arrays, and the 25 blocks tile the output: after the region the output array is
      (a, c) ↦ Σ_{k<128} max (x(a, k) + b(0, k)) 0 · w(k, c)
  of the arrays the region found.
-/
import proofs.«160263_j50646254354789_1_alg».proof.Proof.Gen.KernelIdeal.Frame
import proofs.«160263_j50646254354789_1_alg».proof.Proof.LibReluDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks1

open Cert.KernelIdeal Cert.KernelIdeal.Gen

open Cert.LibReluDense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the stage of its three loaded blocks. -/
theorem pay_eq (x0 : Vec Ideal S2000x128 .f32) (x1 : Vec Ideal S1x128 .f32) (x2 : Vec Ideal S128x64 .f32) :
    k1_pay1 x0 x1 x2 = reluDense 2000 128 64 x0 x1 x2 := by
  unfold k1_pay1
  dsimp only
  rw [biasRelu_of_broadcastTo 2000 128 x0 x1]
  funext i
  exact Cert.LibPlainDot.matmul_plain 2000 128 64 none _ _ i

/-- The printed index maps over the grid: the features and the output move together down the rows, the rest stays. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every row block is some point's. -/
theorem idx_onto : ∀ q : Fin 25, ∃ t : Fin cfg1.N, win1_3.index t = ![q.val, 0] :=
  (by decide +kernel : ∀ q : Fin 25, ∃ t : Fin grid1.N, win1_3.index t = ![q.val, 0])

/-- The features' block at point t, entry (r, k), is the array's entry (2000·(block row) + r, k). -/
theorem iblk_x (c : Dev nD) (t : Fin cfg1.N) (y : S2000x128.Idx) (i : S50000x128.Idx)
    (h0 : (i 0).val = win1_3.index t (0 : Fin 2) * 2000 + (y 0).val) (h1 : (i 1).val = (y 1).val) :
    (iblk1 V c 0 t : Vec Ideal S2000x128 .f32) y = (V c main_v50 : S50000x128.Idx → Elt Ideal .f32) i := by
  obtain ⟨e0, e1, -⟩ := idx_facts t
  unfold iblk1
  rw [View.read_apply]
  show V c main_v50 _ = V c main_v50 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The bias row's block at every point is the whole row. -/
theorem iblk_b (c : Dev nD) (t : Fin cfg1.N) :
    (iblk1 V c 1 t : Vec Ideal S1x128 .f32) = (V c main_v51 : S1x128.Idx → Elt Ideal .f32) := by
  obtain ⟨-, -, e2, e3, -⟩ := idx_facts t
  funext y
  unfold iblk1
  rw [View.read_apply]
  show V c main_v51 _ = V c main_v51 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- The weight's block at every point is the whole weight. -/
theorem iblk_w (c : Dev nD) (t : Fin cfg1.N) :
    (iblk1 V c 2 t : Vec Ideal S128x64 .f32) = (V c main_arg6 : S128x64.Idx → Elt Ideal .f32) := by
  obtain ⟨-, -, -, -, e4, e5, -⟩ := idx_facts t
  funext y
  unfold iblk1
  rw [View.read_apply]
  show V c main_arg6 _ = V c main_arg6 _
  congr 1
  funext a
  apply Fin.ext
  match a with
  | ⟨0, _⟩ => show win1_2.index t (0 : Fin 2) * 128 + 1 * (y 0).val = (y 0).val; rw [e4]; omega
  | ⟨1, _⟩ => show win1_2.index t (1 : Fin 2) * 64 + 1 * (y 1).val = (y 1).val; rw [e5]; omega

/-- What point t writes back is block t of the stage of the whole arrays. -/
theorem flushed_eq (c : Dev nD) (t : Fin cfg1.N) :
    (dat1 V c).flushed 3 t = ((cfg1.win 3).blk t).view.read (Elt Ideal)
      (reluDense 50000 128 64 (V c main_v50) (V c main_v51) (V c main_arg6)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x64) hz]
  rw [pay_eq, iblk_b, iblk_w]
  obtain ⟨-, -, -, -, -, -, e6, -⟩ := idx_facts t
  funext j
  rw [View.read_apply]
  refine reluDense_block 50000 128 64 2000 (V c main_v50) (iblk1 V c 0 t) (V c main_v51) (V c main_arg6) _ j (fun k => ?_) ?_
  · refine iblk_x V c t _ _ ?_ rfl
    show win1_3.index t (0 : Fin 2) * 2000 + 1 * (j 0).val = win1_3.index t (0 : Fin 2) * 2000 + (j 0).val
    omega
  · show (j 1).val = win1_3.index t (1 : Fin 2) * 64 + 1 * (j 1).val
    rw [e6]; omega

/-- An index of the output is in point t's block iff its row is among the block's 2000 rows. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v52).slice (win1_3.rect t)).set ↔ _
  rw [View.set_slice_whole, Rect.mem_set_unit]
  exact Iff.rfl

/-- The 25 row blocks tile the output. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- After the region the output array is the stage of the arrays the region found. -/
theorem final (c : Dev nD) :
    (dat1 V c).arrAt 3 cfg1.N = reluDense 50000 128 64 (V c main_v50) (V c main_v51) (V c main_arg6) :=
  (dat1 V c).arrAt_eq_of_cover 3 _ (fun t _ => flushed_eq V c t) cover

end Cert.KernelIdeal.Blocks1

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibRowMin.lean ====
/-
  Minimum reductions of a matrix, at the ideal values, and sums down its columns.
  * For an [a, b] matrix reduced along its second axis into a vector of length a, a minimum reduction reads, at r, the
    fold of min over k < b of the entries (r, k), started from the accumulator's value.
  * The host's sum along the rows reads, at r, the initial value plus the sum over k < b of the entries (r, k).
  * For an [a, b] matrix reduced along its FIRST axis into a vector of length b: the index of the matrix that lies over
    position c of the vector with k inserted on the reduced axis is (k, c); the host's minimum reduction reads, at c, the
    fold of min over k < a of the entries (k, c), started from the initial value; the host's sum reads, at c, the initial
    value plus the sum over k < a of the entries (k, c).
-/
import Idealize.ShloMosaic.PureOps.Ideal.Laws
import Idealize.ShloMosaic.PureOps.Reduce
import Idealize.ShloMosaic.Lib.ValueIdx

noncomputable section

namespace Cert.LibRowMin

open Idealize.ShloMosaic Idealize.ShloMosaic.ValueIdx

/-- Over position `r` of the reduced vector, with `k` on the reduced (second) axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The minimum along a row: at `r`, the fold of `min` over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single FloatOps.minimumf (FloatOps.ofBits φ acc) src (ix1 r)).trans ?_
  exact congrArg (Finset.fold min (Ideal.ofBits φ acc) · (Finset.univ : Finset (Fin b)))
    (funext fun k => congrArg src (lift_row h r k))

/-- The host's sum along a row: at `r`, the initial value plus the sum over the row's entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (init (Shape.Idx.first hu) + ·) (Finset.sum_congr rfl fun k _ => congrArg x (lift_row h r k)))

/-- The host's minimum down a column: at `c`, the fold of `min` over the column's entries from the initial value. -/
theorem hostColMin_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.minimumf x init h' hu (ix1 c)
      = (Finset.univ : Finset (Fin a)).fold min (init (Shape.Idx.first hu)) (fun k => x (ix2 k c)) := by
  refine (Host.reduce_eq_fold_single FloatOps.minimumf x init h' h hu (ix1 c)).trans ?_
  exact congrArg (Finset.fold min (init (Shape.Idx.first hu)) · (Finset.univ : Finset (Fin a)))
    (funext fun k => congrArg x (lift_col h c k))

end Cert.LibRowMin

end
-- ==== Proof.LibRowStages.lean ====
/-
  Two row-wise stages of an M×N array on the extended reals, each in the spelling a vector unit's program has and in the
  spelling a host program has.

  SOFTMAX OF A MATRIX PLUS A BIAS ROW. For an M×N array z and a bias given as a one-row array b (shape [1, N]):
      addBias z b     : (r, k) ↦ z(r,k) + b(0,k)
      rowMax x        : r ↦ the fold of max over k < N of x(r,k), started from the value of the word 0xFF800000
      expShift x      : (r, k) ↦ exp (x(r,k) − rowMax x r)
      softmaxRows x   : (r, c) ↦ expShift x (r,c) / Σ_{k<N} expShift x (r,k)
      softmaxBias z b = softmaxRows (addBias z b) .
  * addBias_of_kernel / addBias_of_host: both operands shape-cast to their own shapes and the row broadcast over the rows;
    and the row broadcast along the axes [0, 1]; are both addBias.
  * softmaxRows_of_kernel / softmaxRows_of_host: a maximum reduction along axis 1 made a column and broadcast back, a
    subtraction, an exponential, a sum reduction along axis 1 made a column and broadcast back, a division. The host
    takes the maximum once more against a splat of the reduction's starting value, which changes nothing: a fold of max
    is at least its starting value. The host's sum starts from the word 0, which is 0.
  * softmaxBias_of_kernel / softmaxBias_of_host: the two together.
  * softmaxRows_rows, softmaxBias_rows, softmaxBias_block: a row of the result depends on the operand only through the same
    row, so a block of rows of the operand gives that block of rows of the result.

  L2 NORMALISATION OF THE ROWS. For an M×N array l:
      sumSq l         : r ↦ Σ_{k<N} l(r,k) · l(r,k)
      normalizeRows l : (r, c) ↦ l(r,c) / max (sqrt (sumSq l r)) ε ,  ε the value of the word 0x2B8CBCCC .
  * normalizeRows_of_kernel / normalizeRows_of_host, normalizeRows_rows, normalizeRows_block: likewise.

  Also: the exponential, square root and the host's exponential, square root and division read at an index, and the host's
  maximum reduction along the rows as a fold of max (hostRowMax_apply).
  Over the library and the row-reduction, column and small-broadcast lemmas only; every extent is a variable.
-/
import Idealize.ShloMosaic.PureOps.Ideal.Laws
import Idealize.ShloMosaic.PureOps.Reduce
import Idealize.ShloMosaic.Lib.ValueIdx
import Idealize.ShloMosaic.Lib.Pipeline.Value
import proofs.«160263_j50646254354789_1_alg».proof.Proof.LibDenseStage
import proofs.«160263_j50646254354789_1_alg».proof.Proof.LibHostBroadcast
import proofs.«160263_j50646254354789_1_alg».proof.Proof.LibColumn
import proofs.«160263_j50646254354789_1_alg».proof.Proof.LibRowReduce
import proofs.«160263_j50646254354789_1_alg».proof.Proof.LibRowMin

noncomputable section

namespace Cert.LibRowStages

open Idealize.ShloMosaic Idealize.ShloMosaic.ValueIdx

/-! ## Operations read at an index -/

section AtIndex
variable {s : Shape} {φ : FTy}

/-- An exponential at an index is the exponential of the element. -/
theorem exp_apply (a : FVec Ideal s φ) (i : s.Idx) : exp a i = Ideal.exp (a i) := rfl
/-- A square root at an index is the square root of the element. -/
theorem sqrt_apply (a : FVec Ideal s φ) (i : s.Idx) : sqrt a i = Ideal.sqrt (a i) := rfl
/-- The host's exponential at an index is the exponential of the element. -/
theorem hostExp_apply (a : FVec Ideal s φ) (i : s.Idx) : Host.exp a i = Ideal.exp (a i) := rfl
/-- The host's square root at an index is the square root of the element. -/
theorem hostSqrt_apply (a : FVec Ideal s φ) (i : s.Idx) : Host.sqrt a i = Ideal.sqrt (a i) := rfl
/-- The host's quotient at an index is the quotient of the elements. -/
theorem hostDivf_apply (a b : FVec Ideal s φ) (i : s.Idx) : Host.divf a b i = Ideal.div (a i) (b i) := rfl

end AtIndex

/-- A row reduction's shape fact in the host's form gives the one in the vector unit's form: the result has an axis. -/
theorem reduces_of_reducesTo {a b : ℕ} (h' : (⟨2, ![a, b]⟩ : Shape).ReducesTo [1] ⟨1, ![a]⟩) :
    (⟨2, ![a, b]⟩ : Shape).Reduces [1] ⟨1, ![a]⟩ := ⟨h'.1, Nat.one_pos, h'.2⟩

/-- The host's maximum along a row: at `r`, the fold of `max` over the row's entries from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduce FloatOps.maximumf x init h' hu (ix1 r)
      = (Finset.univ : Finset (Fin b)).fold max (init (Shape.Idx.first hu)) (fun k => x (ix2 r k)) := by
  refine (Host.reduce_eq_fold_single FloatOps.maximumf x init h' h hu (ix1 r)).trans ?_
  exact congrArg (Finset.fold max (init (Shape.Idx.first hu)) · (Finset.univ : Finset (Fin b)))
    (funext fun k => congrArg x (Cert.LibRowMin.lift_row h r k))

variable (M N : Nat)

/-! ## Softmax of a matrix plus a bias row -/

/-- z plus the bias row. -/
def addBias (z : FVec Ideal ⟨2, ![M, N]⟩ .f32) (b : FVec Ideal ⟨2, ![1, N]⟩ .f32) : FVec Ideal ⟨2, ![M, N]⟩ .f32 :=
  fun i => z i + b (ix2 (0 : Fin 1) (i 1))

/-- At (r, k): z(r,k) plus the bias row's entry k. -/
theorem addBias_apply (z : FVec Ideal ⟨2, ![M, N]⟩ .f32) (b : FVec Ideal ⟨2, ![1, N]⟩ .f32) (r : Fin M) (k : Fin N) :
    addBias M N z b (ix2 r k) = z (ix2 r k) + b (ix2 (0 : Fin 1) k) := rfl

/-- The maximum of row r: the fold of max over the row's entries from the value of the word 0xFF800000. -/
def rowMax (x : FVec Ideal ⟨2, ![M, N]⟩ .f32) (r : Fin M) : Ideal .f32 :=
  (Finset.univ : Finset (Fin N)).fold max (Ideal.ofBits .f32 0xFF800000#32) (fun k => x (ix2 r k))

/-- Each entry less its row's maximum, exponentiated. -/
def expShift (x : FVec Ideal ⟨2, ![M, N]⟩ .f32) : FVec Ideal ⟨2, ![M, N]⟩ .f32 :=
  fun i => Ideal.exp (x i - rowMax M N x (i 0))

/-- At (r, k): the exponential of x(r,k) less the maximum of row r. -/
theorem expShift_apply (x : FVec Ideal ⟨2, ![M, N]⟩ .f32) (r : Fin M) (k : Fin N) :
    expShift M N x (ix2 r k) = Ideal.exp (x (ix2 r k) - rowMax M N x r) := rfl

/-- The softmax along the rows: each shifted exponential over the sum of its row's. -/
def softmaxRows (x : FVec Ideal ⟨2, ![M, N]⟩ .f32) : FVec Ideal ⟨2, ![M, N]⟩ .f32 :=
  fun i => Ideal.div (expShift M N x i) (∑ k : Fin N, expShift M N x (ix2 (i 0) k))

/-- At (r, c): the shifted exponential at (r, c) over the sum of row r's shifted exponentials. -/
theorem softmaxRows_apply (x : FVec Ideal ⟨2, ![M, N]⟩ .f32) (r : Fin M) (c : Fin N) :
    softmaxRows M N x (ix2 r c) = Ideal.div (expShift M N x (ix2 r c)) (∑ k : Fin N, expShift M N x (ix2 r k)) := rfl

/-- The softmax along the rows of z plus the bias row. -/
def softmaxBias (z : FVec Ideal ⟨2, ![M, N]⟩ .f32) (b : FVec Ideal ⟨2, ![1, N]⟩ .f32) : FVec Ideal ⟨2, ![M, N]⟩ .f32 :=
  softmaxRows M N (addBias M N z b)

/-- The stage index by index: with zb(r,k) = z(r,k) + b(0,k) and mx(r) the fold of max over k of zb(r,k) from the value of
    the word 0xFF800000, the entry (r, c) is exp (zb(r,c) − mx(r)) over the sum over k of exp (zb(r,k) − mx(r)). -/
theorem softmaxBias_apply (z : FVec Ideal ⟨2, ![M, N]⟩ .f32) (b : FVec Ideal ⟨2, ![1, N]⟩ .f32) (r : Fin M) (c : Fin N) :
    softmaxBias M N z b (ix2 r c)
      = Ideal.div
          (Ideal.exp (z (ix2 r c) + b (ix2 (0 : Fin 1) c)
            - (Finset.univ : Finset (Fin N)).fold max (Ideal.ofBits .f32 0xFF800000#32)
                (fun k => z (ix2 r k) + b (ix2 (0 : Fin 1) k))))
          (∑ k' : Fin N, Ideal.exp (z (ix2 r k') + b (ix2 (0 : Fin 1) k')
            - (Finset.univ : Finset (Fin N)).fold max (Ideal.ofBits .f32 0xFF800000#32)
                (fun k => z (ix2 r k) + b (ix2 (0 : Fin 1) k)))) := rfl

/-! ### A block of rows -/

/-- The maximum of row a' of a block is that of row a of the whole, when the block's row a' is the whole's row a. -/
theorem rowMax_rows (M' : Nat) (X : FVec Ideal ⟨2, ![M, N]⟩ .f32) (x : FVec Ideal ⟨2, ![M', N]⟩ .f32) (a : Fin M) (a' : Fin M')
    (h : ∀ k : Fin N, x (ix2 a' k) = X (ix2 a k)) : rowMax M' N x a' = rowMax M N X a :=
  congrArg (Finset.fold max (Ideal.ofBits .f32 0xFF800000#32) · (Finset.univ : Finset (Fin N))) (funext h)

/-- Row a' of a block's shifted exponentials is row a of the whole's, when the block's row a' is the whole's row a. -/
theorem expShift_rows (M' : Nat) (X : FVec Ideal ⟨2, ![M, N]⟩ .f32) (x : FVec Ideal ⟨2, ![M', N]⟩ .f32) (a : Fin M) (a' : Fin M')
    (h : ∀ k : Fin N, x (ix2 a' k) = X (ix2 a k)) (c : Fin N) : expShift M' N x (ix2 a' c) = expShift M N X (ix2 a c) := by
  rw [expShift_apply, expShift_apply, h c, rowMax_rows M N M' X x a a' h]

/-- Row a' of a block's softmax is row a of the whole's, when the block's row a' is the whole's row a. -/
theorem softmaxRows_rows (M' : Nat) (X : FVec Ideal ⟨2, ![M, N]⟩ .f32) (x : FVec Ideal ⟨2, ![M', N]⟩ .f32) (a : Fin M) (a' : Fin M')
    (h : ∀ k : Fin N, x (ix2 a' k) = X (ix2 a k)) (c : Fin N) : softmaxRows M' N x (ix2 a' c) = softmaxRows M N X (ix2 a c) := by
  rw [softmaxRows_apply, softmaxRows_apply, expShift_rows M N M' X x a a' h c]
  exact congrArg (Ideal.div _) (Finset.sum_congr rfl fun k _ => expShift_rows M N M' X x a a' h k)

/-- The same for the softmax of z plus the bias row: the bias is the same for every row. -/
theorem softmaxBias_rows (M' : Nat) (Z : FVec Ideal ⟨2, ![M, N]⟩ .f32) (z : FVec Ideal ⟨2, ![M', N]⟩ .f32)
    (b : FVec Ideal ⟨2, ![1, N]⟩ .f32) (a : Fin M) (a' : Fin M') (h : ∀ k : Fin N, z (ix2 a' k) = Z (ix2 a k)) (c : Fin N) :
    softmaxBias M' N z b (ix2 a' c) = softmaxBias M N Z b (ix2 a c) :=
  softmaxRows_rows M N M' _ _ a a' (fun k => by rw [addBias_apply, addBias_apply, h k]) c

/-- The same with the two positions given as indices: j in a block of M' rows, i in the whole array, in the same column,
    the block's row of j being the whole's row of i. -/
theorem softmaxBias_block (M' : Nat) (Z : FVec Ideal ⟨2, ![M, N]⟩ .f32) (z : FVec Ideal ⟨2, ![M', N]⟩ .f32)
    (b : FVec Ideal ⟨2, ![1, N]⟩ .f32) (i : (⟨2, ![M, N]⟩ : Shape).Idx) (j : (⟨2, ![M', N]⟩ : Shape).Idx)
    (h : ∀ k : Fin N, z (ix2 (j 0) k) = Z (ix2 (i 0) k)) (hc : (j 1).val = (i 1).val) :
    softmaxBias M' N z b j = softmaxBias M N Z b i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact softmaxBias_rows M N M' Z z b a a' h c'

/-! ### The vector unit's spelling -/

/-- Both operands shape-cast to their own shapes, the row broadcast over the rows, a sum: z plus the bias row. -/
theorem addBias_of_kernel (z : FVec Ideal ⟨2, ![M, N]⟩ .f32) (b : FVec Ideal ⟨2, ![1, N]⟩ .f32)
    (hz : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) :
    addf (shapeCast ⟨2, ![M, N]⟩ z hz) (broadcastTo ⟨2, ![M, N]⟩ (shapeCast ⟨2, ![1, N]⟩ b hc) hb) = addBias M N z b := by
  funext i
  obtain ⟨r, k, rfl⟩ : ∃ (r : Fin M) (k : Fin N), i = ix2 r k := ⟨i 0, i 1, eq_ix2 i⟩
  rw [addf_apply, shapeCast_self, shapeCast_self, Cert.LibDenseStage.row_broadcastTo, addBias_apply]

/-- A row's maximum made a column and broadcast over the columns reads, at (r, k), the maximum of row r. -/
theorem rowMax_of_kernel (x : FVec Ideal ⟨2, ![M, N]⟩ .f32) (hr : (⟨2, ![M, N]⟩ : Shape).Reduces [1] ⟨1, ![M]⟩)
    (hφ : FKind.Formats .f32) (hmax : 0xFF800000#32 = FKind.maximumf.neutral .f32 hφ)
    (hcol : (⟨1, ![M]⟩ : Shape).ShapeCasts ⟨2, ![M, 1]⟩) (hbc : (⟨2, ![M, 1]⟩ : Shape).Broadcasts ⟨2, ![M, N]⟩) (r : Fin M) (k : Fin N) :
    broadcastTo ⟨2, ![M, N]⟩ (shapeCast ⟨2, ![M, 1]⟩ (multiReduction .maximumf [1] ⟨1, ![M]⟩ x 0xFF800000#32 hr hφ hmax) hcol) hbc (ix2 r k)
      = rowMax M N x r := by
  rw [Cert.LibColumn.broadcastTo_a1_ab_apply, Cert.LibColumn.shapeCast_a_a1_apply, Cert.LibRowReduce.rowMax_apply]
  rfl

/-- The shifted exponentials in the vector unit's spelling. -/
theorem expShift_of_kernel (x : FVec Ideal ⟨2, ![M, N]⟩ .f32) (hr : (⟨2, ![M, N]⟩ : Shape).Reduces [1] ⟨1, ![M]⟩)
    (hφ : FKind.Formats .f32) (hmax : 0xFF800000#32 = FKind.maximumf.neutral .f32 hφ)
    (hcol : (⟨1, ![M]⟩ : Shape).ShapeCasts ⟨2, ![M, 1]⟩) (hbc : (⟨2, ![M, 1]⟩ : Shape).Broadcasts ⟨2, ![M, N]⟩) :
    exp (subf x (broadcastTo ⟨2, ![M, N]⟩
        (shapeCast ⟨2, ![M, 1]⟩ (multiReduction .maximumf [1] ⟨1, ![M]⟩ x 0xFF800000#32 hr hφ hmax) hcol) hbc))
      = expShift M N x := by
  funext i
  obtain ⟨r, k, rfl⟩ : ∃ (r : Fin M) (k : Fin N), i = ix2 r k := ⟨i 0, i 1, eq_ix2 i⟩
  rw [exp_apply, subf_apply, rowMax_of_kernel, expShift_apply]

/-- The softmax along the rows in the vector unit's spelling: a maximum reduction along axis 1 made a column and broadcast
    back, a subtraction, an exponential, a sum reduction along axis 1 made a column and broadcast back, a division. -/
theorem softmaxRows_of_kernel (x : FVec Ideal ⟨2, ![M, N]⟩ .f32) (hr : (⟨2, ![M, N]⟩ : Shape).Reduces [1] ⟨1, ![M]⟩)
    (hφ : FKind.Formats .f32) (hmax : 0xFF800000#32 = FKind.maximumf.neutral .f32 hφ)
    (hcol : (⟨1, ![M]⟩ : Shape).ShapeCasts ⟨2, ![M, 1]⟩) (hbc : (⟨2, ![M, 1]⟩ : Shape).Broadcasts ⟨2, ![M, N]⟩)
    (hadd : 0x00000000#32 = FKind.add.neutral .f32 hφ) :
    divf
        (exp (subf x (broadcastTo ⟨2, ![M, N]⟩
          (shapeCast ⟨2, ![M, 1]⟩ (multiReduction .maximumf [1] ⟨1, ![M]⟩ x 0xFF800000#32 hr hφ hmax) hcol) hbc)))
        (broadcastTo ⟨2, ![M, N]⟩
          (shapeCast ⟨2, ![M, 1]⟩
            (multiReduction .add [1] ⟨1, ![M]⟩
              (exp (subf x (broadcastTo ⟨2, ![M, N]⟩
                (shapeCast ⟨2, ![M, 1]⟩ (multiReduction .maximumf [1] ⟨1, ![M]⟩ x 0xFF800000#32 hr hφ hmax) hcol) hbc)))
              0x00000000#32 hr hφ hadd) hcol) hbc)
      = softmaxRows M N x := by
  rw [expShift_of_kernel]
  funext i
  obtain ⟨r, c, rfl⟩ : ∃ (r : Fin M) (c : Fin N), i = ix2 r c := ⟨i 0, i 1, eq_ix2 i⟩
  rw [divf_apply, Cert.LibColumn.broadcastTo_a1_ab_apply, Cert.LibColumn.shapeCast_a_a1_apply, Cert.LibRowReduce.rowSum_apply,
    softmaxRows_apply]

/-- The softmax of z plus the bias row in the vector unit's spelling. -/
theorem softmaxBias_of_kernel (z : FVec Ideal ⟨2, ![M, N]⟩ .f32) (b : FVec Ideal ⟨2, ![1, N]⟩ .f32)
    (hz : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) (hr : (⟨2, ![M, N]⟩ : Shape).Reduces [1] ⟨1, ![M]⟩)
    (hφ : FKind.Formats .f32) (hmax : 0xFF800000#32 = FKind.maximumf.neutral .f32 hφ)
    (hcol : (⟨1, ![M]⟩ : Shape).ShapeCasts ⟨2, ![M, 1]⟩) (hbc : (⟨2, ![M, 1]⟩ : Shape).Broadcasts ⟨2, ![M, N]⟩)
    (hadd : 0x00000000#32 = FKind.add.neutral .f32 hφ) :
    divf
        (exp (subf (addf (shapeCast ⟨2, ![M, N]⟩ z hz) (broadcastTo ⟨2, ![M, N]⟩ (shapeCast ⟨2, ![1, N]⟩ b hc) hb))
          (broadcastTo ⟨2, ![M, N]⟩
            (shapeCast ⟨2, ![M, 1]⟩
              (multiReduction .maximumf [1] ⟨1, ![M]⟩
                (addf (shapeCast ⟨2, ![M, N]⟩ z hz) (broadcastTo ⟨2, ![M, N]⟩ (shapeCast ⟨2, ![1, N]⟩ b hc) hb))
                0xFF800000#32 hr hφ hmax) hcol) hbc)))
        (broadcastTo ⟨2, ![M, N]⟩
          (shapeCast ⟨2, ![M, 1]⟩
            (multiReduction .add [1] ⟨1, ![M]⟩
              (exp (subf (addf (shapeCast ⟨2, ![M, N]⟩ z hz) (broadcastTo ⟨2, ![M, N]⟩ (shapeCast ⟨2, ![1, N]⟩ b hc) hb))
                (broadcastTo ⟨2, ![M, N]⟩
                  (shapeCast ⟨2, ![M, 1]⟩
                    (multiReduction .maximumf [1] ⟨1, ![M]⟩
                      (addf (shapeCast ⟨2, ![M, N]⟩ z hz) (broadcastTo ⟨2, ![M, N]⟩ (shapeCast ⟨2, ![1, N]⟩ b hc) hb))
                      0xFF800000#32 hr hφ hmax) hcol) hbc)))
              0x00000000#32 hr hφ hadd) hcol) hbc)
      = softmaxBias M N z b := by
  rw [addBias_of_kernel]
  exact softmaxRows_of_kernel M N _ hr hφ hmax hcol hbc hadd

/-! ### The host's spelling -/

/-- The row broadcast along the axes [0, 1], a sum: z plus the bias row. -/
theorem addBias_of_host (z : FVec Ideal ⟨2, ![M, N]⟩ .f32) (b : FVec Ideal ⟨2, ![1, N]⟩ .f32)
    (hb : (⟨2, ![1, N]⟩ : Shape).BroadcastsInDim ⟨2, ![M, N]⟩ (![0, 1] : Fin 2 → Fin 2)) :
    addf z (broadcastInDim ⟨2, ![M, N]⟩ ![0, 1] hb b) = addBias M N z b := by
  funext i
  obtain ⟨r, k, rfl⟩ : ∃ (r : Fin M) (k : Fin N), i = ix2 r k := ⟨i 0, i 1, eq_ix2 i⟩
  rw [addf_apply, Cert.LibDenseStage.row_broadcastInDim, addBias_apply]

/-- The host's maximum along the rows, taken once more against a splat of its starting value, made a column and spread
    over the columns reads, at (r, k), the maximum of row r: a fold of max is at least its starting value. -/
theorem rowMax_of_host (x : FVec Ideal ⟨2, ![M, N]⟩ .f32) (hrt : (⟨2, ![M, N]⟩ : Shape).ReducesTo [1] ⟨1, ![M]⟩)
    (h0 : 0 < (⟨0, ![]⟩ : Shape).numel) (hs : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (r : Fin M) (k : Fin N) :
    broadcastInDim ⟨2, ![M, N]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf x (constant (F := Ideal) ⟨0, ![]⟩ .f32 0xFF800000#32) hrt h0))) (ix2 r k)
      = rowMax M N x r := by
  rw [Cert.LibHostBroadcast.vec_along_rows, maximumf_apply,
    broadcastInDim_apply (![] : Fin 0 → Fin 1) hs _ (ix1 r) ix0 (fun ax => ax.elim0), constant_apply,
    hostRowMax_apply x _ hrt (reduces_of_reducesTo hrt) h0 r, constant_apply]
  exact max_eq_right ((Finset.le_fold_max _).mpr (Or.inl le_rfl))

/-- The shifted exponentials in the host's spelling. -/
theorem expShift_of_host (x : FVec Ideal ⟨2, ![M, N]⟩ .f32) (hrt : (⟨2, ![M, N]⟩ : Shape).ReducesTo [1] ⟨1, ![M]⟩)
    (h0 : 0 < (⟨0, ![]⟩ : Shape).numel) (hs : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) :
    Host.exp (subf x (broadcastInDim ⟨2, ![M, N]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf x (constant (F := Ideal) ⟨0, ![]⟩ .f32 0xFF800000#32) hrt h0)))))
      = expShift M N x := by
  funext i
  obtain ⟨r, k, rfl⟩ : ∃ (r : Fin M) (k : Fin N), i = ix2 r k := ⟨i 0, i 1, eq_ix2 i⟩
  rw [hostExp_apply, subf_apply, rowMax_of_host, expShift_apply]

/-- The softmax along the rows in the host's spelling: a maximum reduction along axis 1 from the word 0xFF800000, a maximum
    with a splat of the same word, two broadcasts back, a subtraction, an exponential, a sum reduction along axis 1 from
    the word 0, two broadcasts back, a division. -/
theorem softmaxRows_of_host (x : FVec Ideal ⟨2, ![M, N]⟩ .f32) (hrt : (⟨2, ![M, N]⟩ : Shape).ReducesTo [1] ⟨1, ![M]⟩)
    (h0 : 0 < (⟨0, ![]⟩ : Shape).numel) (hs : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) :
    Host.divf
        (Host.exp (subf x (broadcastInDim ⟨2, ![M, N]⟩ ![0, 1] h2 (broadcastInDim ⟨2, ![M, 1]⟩ ![0] h1
          (maximumf (broadcastInDim ⟨1, ![M]⟩ ![] hs (constant (F := Ideal) ⟨0, ![]⟩ .f32 0xFF800000#32))
            (Host.reduce FloatOps.maximumf x (constant (F := Ideal) ⟨0, ![]⟩ .f32 0xFF800000#32) hrt h0))))))
        (broadcastInDim ⟨2, ![M, N]⟩ ![0, 1] h2 (broadcastInDim ⟨2, ![M, 1]⟩ ![0] h1
          (Host.reduceAdd
            (Host.exp (subf x (broadcastInDim ⟨2, ![M, N]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf x (constant (F := Ideal) ⟨0, ![]⟩ .f32 0xFF800000#32) hrt h0))))))
            (constant (F := Ideal) ⟨0, ![]⟩ .f32 0x00000000#32) hrt h0)))
      = softmaxRows M N x := by
  rw [expShift_of_host]
  funext i
  obtain ⟨r, c, rfl⟩ : ∃ (r : Fin M) (c : Fin N), i = ix2 r c := ⟨i 0, i 1, eq_ix2 i⟩
  rw [hostDivf_apply, Cert.LibHostBroadcast.vec_along_rows,
    Cert.LibRowMin.hostRowSum_apply _ _ hrt (reduces_of_reducesTo hrt) h0 r, constant_apply, Ideal.ofBits_zero_f32, zero_add,
    softmaxRows_apply]

/-- The softmax of z plus the bias row in the host's spelling. -/
theorem softmaxBias_of_host (z : FVec Ideal ⟨2, ![M, N]⟩ .f32) (b : FVec Ideal ⟨2, ![1, N]⟩ .f32)
    (hb : (⟨2, ![1, N]⟩ : Shape).BroadcastsInDim ⟨2, ![M, N]⟩ (![0, 1] : Fin 2 → Fin 2))
    (hrt : (⟨2, ![M, N]⟩ : Shape).ReducesTo [1] ⟨1, ![M]⟩)
    (h0 : 0 < (⟨0, ![]⟩ : Shape).numel) (hs : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) :
    Host.divf
        (Host.exp (subf (addf z (broadcastInDim ⟨2, ![M, N]⟩ ![0, 1] hb b))
          (broadcastInDim ⟨2, ![M, N]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf (addf z (broadcastInDim ⟨2, ![M, N]⟩ ![0, 1] hb b))
                (constant (F := Ideal) ⟨0, ![]⟩ .f32 0xFF800000#32) hrt h0))))))
        (broadcastInDim ⟨2, ![M, N]⟩ ![0, 1] h2 (broadcastInDim ⟨2, ![M, 1]⟩ ![0] h1
          (Host.reduceAdd
            (Host.exp (subf (addf z (broadcastInDim ⟨2, ![M, N]⟩ ![0, 1] hb b))
              (broadcastInDim ⟨2, ![M, N]⟩ ![0, 1] h2 (broadcastInDim ⟨2, ![M, 1]⟩ ![0] h1
                (maximumf (broadcastInDim ⟨1, ![M]⟩ ![] hs (constant (F := Ideal) ⟨0, ![]⟩ .f32 0xFF800000#32))
                  (Host.reduce FloatOps.maximumf (addf z (broadcastInDim ⟨2, ![M, N]⟩ ![0, 1] hb b))
                    (constant (F := Ideal) ⟨0, ![]⟩ .f32 0xFF800000#32) hrt h0))))))
            (constant (F := Ideal) ⟨0, ![]⟩ .f32 0x00000000#32) hrt h0)))
      = softmaxBias M N z b := by
  rw [addBias_of_host]
  exact softmaxRows_of_host M N _ hrt h0 hs h1 h2

/-! ## L2 normalisation of the rows -/

/-- The sum of the squares of row r. -/
def sumSq (l : FVec Ideal ⟨2, ![M, N]⟩ .f32) (r : Fin M) : Ideal .f32 :=
  ∑ k : Fin N, l (ix2 r k) * l (ix2 r k)

/-- Each entry over its row's norm, the norm cut off below at the value of the word 0x2B8CBCCC. -/
def normalizeRows (l : FVec Ideal ⟨2, ![M, N]⟩ .f32) : FVec Ideal ⟨2, ![M, N]⟩ .f32 :=
  fun i => Ideal.div (l i) (max (Ideal.sqrt (sumSq M N l (i 0))) (Ideal.ofBits .f32 0x2B8CBCCC#32))

/-- The stage index by index: the entry (r, c) is l(r,c) over the larger of the square root of the sum over k of l(r,k)²
    and the value of the word 0x2B8CBCCC. -/
theorem normalizeRows_apply (l : FVec Ideal ⟨2, ![M, N]⟩ .f32) (r : Fin M) (c : Fin N) :
    normalizeRows M N l (ix2 r c)
      = Ideal.div (l (ix2 r c))
          (max (Ideal.sqrt (∑ k : Fin N, l (ix2 r k) * l (ix2 r k))) (Ideal.ofBits .f32 0x2B8CBCCC#32)) := rfl

/-! ### A block of rows -/

/-- The sum of squares of row a' of a block is that of row a of the whole, when the block's row a' is the whole's row a. -/
theorem sumSq_rows (M' : Nat) (L : FVec Ideal ⟨2, ![M, N]⟩ .f32) (l : FVec Ideal ⟨2, ![M', N]⟩ .f32) (a : Fin M) (a' : Fin M')
    (h : ∀ k : Fin N, l (ix2 a' k) = L (ix2 a k)) : sumSq M' N l a' = sumSq M N L a :=
  Finset.sum_congr rfl fun k _ => by rw [h k]

/-- Row a' of a block's normalisation is row a of the whole's, when the block's row a' is the whole's row a. -/
theorem normalizeRows_rows (M' : Nat) (L : FVec Ideal ⟨2, ![M, N]⟩ .f32) (l : FVec Ideal ⟨2, ![M', N]⟩ .f32) (a : Fin M)
    (a' : Fin M') (h : ∀ k : Fin N, l (ix2 a' k) = L (ix2 a k)) (c : Fin N) :
    normalizeRows M' N l (ix2 a' c) = normalizeRows M N L (ix2 a c) := by
  show Ideal.div (l (ix2 a' c)) (max (Ideal.sqrt (sumSq M' N l a')) _) = Ideal.div (L (ix2 a c)) (max (Ideal.sqrt (sumSq M N L a)) _)
  rw [h c, sumSq_rows M N M' L l a a' h]

/-- The same with the two positions given as indices: j in a block of M' rows, i in the whole array, in the same column,
    the block's row of j being the whole's row of i. -/
theorem normalizeRows_block (M' : Nat) (L : FVec Ideal ⟨2, ![M, N]⟩ .f32) (l : FVec Ideal ⟨2, ![M', N]⟩ .f32)
    (i : (⟨2, ![M, N]⟩ : Shape).Idx) (j : (⟨2, ![M', N]⟩ : Shape).Idx)
    (h : ∀ k : Fin N, l (ix2 (j 0) k) = L (ix2 (i 0) k)) (hc : (j 1).val = (i 1).val) :
    normalizeRows M' N l j = normalizeRows M N L i := by
  obtain ⟨a', c', rfl⟩ : ∃ (a' : Fin M') (c' : Fin N), j = ix2 a' c' := ⟨j 0, j 1, eq_ix2 j⟩
  obtain ⟨a, c, rfl⟩ : ∃ (a : Fin M) (c : Fin N), i = ix2 a c := ⟨i 0, i 1, eq_ix2 i⟩
  obtain rfl : c' = c := Fin.ext hc
  exact normalizeRows_rows M N M' L l a a' h c'

/-! ### The two spellings -/

/-- The vector unit's spelling: the operand shape-cast to its own shape, its square summed along axis 1 and made a column,
    a square root, a maximum with a splat of the scalar word 0x2B8CBCCC, the column broadcast over the columns, a division. -/
theorem normalizeRows_of_kernel (l : FVec Ideal ⟨2, ![M, N]⟩ .f32) (hz : (⟨2, ![M, N]⟩ : Shape).ShapeCasts ⟨2, ![M, N]⟩)
    (hr : (⟨2, ![M, N]⟩ : Shape).Reduces [1] ⟨1, ![M]⟩) (hφ : FKind.Formats .f32)
    (hadd : 0x00000000#32 = FKind.add.neutral .f32 hφ) (hcol : (⟨1, ![M]⟩ : Shape).ShapeCasts ⟨2, ![M, 1]⟩)
    (hbc : (⟨2, ![M, 1]⟩ : Shape).Broadcasts ⟨2, ![M, N]⟩) :
    divf (shapeCast ⟨2, ![M, N]⟩ l hz)
        (broadcastTo ⟨2, ![M, N]⟩
          (maximumf
            (sqrt (shapeCast ⟨2, ![M, 1]⟩
              (multiReduction .add [1] ⟨1, ![M]⟩ (mulf (shapeCast ⟨2, ![M, N]⟩ l hz) (shapeCast ⟨2, ![M, N]⟩ l hz))
                0x00000000#32 hr hφ hadd) hcol))
            (broadcast ⟨2, ![M, 1]⟩ (Scalar.ofBits (F := Ideal) .f32 0x2B8CBCCC#32))) hbc)
      = normalizeRows M N l := by
  rw [shapeCast_self]
  funext i
  obtain ⟨r, c, rfl⟩ : ∃ (r : Fin M) (c : Fin N), i = ix2 r c := ⟨i 0, i 1, eq_ix2 i⟩
  rw [divf_apply, Cert.LibColumn.broadcastTo_a1_ab_apply, maximumf_apply, sqrt_apply, Cert.LibColumn.shapeCast_a_a1_apply,
    Cert.LibRowReduce.rowSum_apply, broadcast_apply, normalizeRows_apply]
  rfl

/-- The host's spelling: the square summed along axis 1 from the word 0 and made a column, a square root, a maximum with
    a rank-0 constant 0x2B8CBCCC broadcast along no axis, the column broadcast along the axes [0, 1], a division. -/
theorem normalizeRows_of_host (l : FVec Ideal ⟨2, ![M, N]⟩ .f32) (hrt : (⟨2, ![M, N]⟩ : Shape).ReducesTo [1] ⟨1, ![M]⟩)
    (h0 : 0 < (⟨0, ![]⟩ : Shape).numel) (h1 : (⟨1, ![M]⟩ : Shape).BroadcastsInDim ⟨2, ![M, 1]⟩ (![0] : Fin 1 → Fin 2))
    (hs1 : (⟨0, ![]⟩ : Shape).BroadcastsInDim ⟨2, ![M, 1]⟩ (![] : Fin 0 → Fin 2))
    (h2 : (⟨2, ![M, 1]⟩ : Shape).BroadcastsInDim ⟨2, ![M, N]⟩ (![0, 1] : Fin 2 → Fin 2)) :
    Host.divf l
        (broadcastInDim ⟨2, ![M, N]⟩ ![0, 1] h2
          (maximumf
            (Host.sqrt (broadcastInDim ⟨2, ![M, 1]⟩ ![0] h1
              (Host.reduceAdd (mulf l l) (constant (F := Ideal) ⟨0, ![]⟩ .f32 0x00000000#32) hrt h0)))
            (broadcastInDim ⟨2, ![M, 1]⟩ ![] hs1 (constant (F := Ideal) ⟨0, ![]⟩ .f32 0x2B8CBCCC#32))))
      = normalizeRows M N l := by
  funext i
  obtain ⟨r, c, rfl⟩ : ∃ (r : Fin M) (c : Fin N), i = ix2 r c := ⟨i 0, i 1, eq_ix2 i⟩
  rw [hostDivf_apply, Cert.LibHostBroadcast.col_to_mat, maximumf_apply, hostSqrt_apply, Cert.LibHostBroadcast.vec_to_col,
    Cert.LibRowMin.hostRowSum_apply _ _ hrt (reduces_of_reducesTo hrt) h0 r, constant_apply, Ideal.ofBits_zero_f32, zero_add,
    broadcastInDim_apply (![] : Fin 0 → Fin 2) hs1 _ (ix2 r (0 : Fin 1)) ix0 (fun ax => ax.elim0), constant_apply,
    normalizeRows_apply]
  rfl

end Cert.LibRowStages

end
-- ==== Proof.Region2.lean ====
/-
  The row softmax, block by block.
  Point t of the 25 stages rows 2000·t … 2000·t + 1999 of the aggregated [50000, 64] logits and the whole [1, 64] bias row and
  writes the same rows of the [50000, 64] output: in each row, exp(z + b − max) over its sum. A row of the result depends on
  the logits only through the same row, so what point t writes back is block t of the softmax of the whole array, and the 25
  blocks tile the output.
-/
import proofs.«160263_j50646254354789_1_alg».proof.Proof.Gen.KernelIdeal.Frame
import proofs.«160263_j50646254354789_1_alg».proof.Proof.LibRowStages
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks2

open Cert.KernelIdeal Cert.KernelIdeal.Gen

open Cert.LibRowStages

variable (V : (c : Dev nD) → (b : Ref sig .tc) → Buf (Elt Ideal) ((c : Thread nD τ).loc b))

theorem hz : (![0, 0] : Fin 2 → Nat) = fun _ => 0 := funext fun a => by fin_cases a <;> rfl

/-- The body's stored value is the softmax of its loaded block plus the bias row. -/
theorem pay_eq (x0 : Vec Ideal S2000x64 .f32) (x1 : Vec Ideal S1x64 .f32) :
    k2_pay1 x0 x1 = softmaxBias 2000 64 x0 x1 := by
  unfold k2_pay1
  exact softmaxBias_of_kernel 2000 64 x0 x1 _ _ _ _ _ _ _ _ _

/-- The printed index maps over the grid: the logits and the output move together down the rows, the bias row stays. -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every row block is some point's. -/
theorem idx_onto : ∀ q : Fin 25, ∃ t : Fin cfg2.N, win2_2.index t = ![q.val, 0] :=
  (by decide +kernel : ∀ q : Fin 25, ∃ t : Fin grid2.N, win2_2.index t = ![q.val, 0])

/-- The logits' block at point t, entry (r, k), is the array's entry (2000·(block row) + r, k). -/
theorem iblk_x (c : Dev nD) (t : Fin cfg2.N) (y : S2000x64.Idx) (i : S50000x64.Idx)
    (h0 : (i 0).val = win2_2.index t (0 : Fin 2) * 2000 + (y 0).val) (h1 : (i 1).val = (y 1).val) :
    (iblk2 V c 0 t : Vec Ideal S2000x64 .f32) y = (V c main_v69 : S50000x64.Idx → Elt Ideal .f32) i := by
  obtain ⟨e0, e1, -⟩ := idx_facts t
  unfold iblk2
  rw [View.read_apply]
  show V c main_v69 _ = V c main_v69 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 64 + 1 * (y 1).val = (i 1).val; rw [e1, h1]; omega

/-- The bias row's block at every point is the whole row. -/
theorem iblk_b (c : Dev nD) (t : Fin cfg2.N) :
    (iblk2 V c 1 t : Vec Ideal S1x64 .f32) = (V c main_v70 : S1x64.Idx → Elt Ideal .f32) := by
  obtain ⟨-, -, e2, e3, -⟩ := idx_facts t
  funext y
  unfold iblk2
  rw [View.read_apply]
  show V c main_v70 _ = V c main_v70 _
  congr 1
  funext a
  apply Fin.ext
  match a with
  | ⟨0, _⟩ => show win2_1.index t (0 : Fin 2) * 1 + 1 * (y 0).val = (y 0).val; rw [e2]; omega
  | ⟨1, _⟩ => show win2_1.index t (1 : Fin 2) * 64 + 1 * (y 1).val = (y 1).val; rw [e3]; omega

/-- What point t writes back is block t of the softmax of the whole arrays. -/
theorem flushed_eq (c : Dev nD) (t : Fin cfg2.N) :
    (dat2 V c).flushed 2 t = ((cfg2.win 2).blk t).view.read (Elt Ideal)
      (softmaxBias 50000 64 (V c main_v69) (V c main_v70)) := by
  show (cfg2.win 2).cut (grid2.coords t) ((dat2 V c).after 2 t) = _
  rw [after2_2]
  unfold out2_2
  rw [View.canon_unit_zero hz]
  simp only [View.ld_unit_zero (S := S2000x64) hz, View.ld_unit_zero (S := S1x64) hz]
  rw [pay_eq, iblk_b]
  obtain ⟨-, -, -, -, e4, -⟩ := idx_facts t
  funext j
  rw [View.read_apply]
  refine softmaxBias_block 50000 64 2000 (V c main_v69) (iblk2 V c 0 t) (V c main_v70) _ j (fun k => ?_) ?_
  · refine iblk_x V c t _ _ ?_ rfl
    show win2_2.index t (0 : Fin 2) * 2000 + 1 * (j 0).val = win2_2.index t (0 : Fin 2) * 2000 + (j 0).val
    omega
  · show (j 1).val = win2_2.index t (1 : Fin 2) * 64 + 1 * (j 1).val
    rw [e4]; omega

/-- An index of the output is in point t's block iff its row is among the block's 2000 rows. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v71).slice (win2_2.rect t)).set ↔ _
  rw [View.set_slice_whole, Rect.mem_set_unit]
  exact Iff.rfl

/-- The 25 row blocks tile the output. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region the output array is the row softmax of the arrays the region found. -/
theorem final (c : Dev nD) :
    (dat2 V c).arrAt 2 cfg2.N = softmaxBias 50000 64 (V c main_v69) (V c main_v70) :=
  (dat2 V c).arrAt_eq_of_cover 2 _ (fun t _ => flushed_eq V c t) cover

end Cert.KernelIdeal.Blocks2

end
-- ==== Proof.Region3.lean ====
/-
  The row normalisation, block by block.
  Point t of the 25 stages rows 2000·t … 2000·t + 1999 of the propagated [50000, 64] labels and writes the same rows of the
  [50000, 64] output: each row over the larger of its Euclidean length and a small floor. A row of the result depends on
  the labels only through the same row, so what point t writes back is block t of the normalisation of the whole array,
  and the 25 blocks tile the output.
-/
import proofs.«160263_j50646254354789_1_alg».proof.Proof.Gen.KernelIdeal.Frame
import proofs.«160263_j50646254354789_1_alg».proof.Proof.LibRowStages
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks3

open Cert.KernelIdeal Cert.KernelIdeal.Gen

open Cert.LibRowStages

variable (V : (c : Dev nD) → (b : Ref sig .tc) → Buf (Elt Ideal) ((c : Thread nD τ).loc b))

theorem hz : (![0, 0] : Fin 2 → Nat) = fun _ => 0 := funext fun a => by fin_cases a <;> rfl

/-- The body's stored value is the normalisation of its loaded block. -/
theorem pay_eq (x0 : Vec Ideal S2000x64 .f32) : k3_pay1 x0 = normalizeRows 2000 64 x0 := by
  unfold k3_pay1
  exact normalizeRows_of_kernel 2000 64 x0 _ _ _ _ _ _

/-- The printed index maps over the grid: the labels and the output move together down the rows. -/
theorem idx_facts : ∀ t : Fin cfg3.N, win3_0.index t (0 : Fin 2) = win3_1.index t (0 : Fin 2)
    ∧ win3_0.index t (1 : Fin 2) = 0
    ∧ win3_1.index t (1 : Fin 2) = 0 ∧ win3_1.index t (0 : Fin 2) ≤ 24 :=
  (by decide +kernel : ∀ t : Fin grid3.N, _)

/-- Every row block is some point's. -/
theorem idx_onto : ∀ q : Fin 25, ∃ t : Fin cfg3.N, win3_1.index t = ![q.val, 0] :=
  (by decide +kernel : ∀ q : Fin 25, ∃ t : Fin grid3.N, win3_1.index t = ![q.val, 0])

/-- The labels' block at point t, entry (r, k), is the array's entry (2000·(block row) + r, k). -/
theorem iblk_x (c : Dev nD) (t : Fin cfg3.N) (y : S2000x64.Idx) (i : S50000x64.Idx)
    (h0 : (i 0).val = win3_1.index t (0 : Fin 2) * 2000 + (y 0).val) (h1 : (i 1).val = (y 1).val) :
    (iblk3 V c 0 t : Vec Ideal S2000x64 .f32) y = (V c main_v128 : S50000x64.Idx → Elt Ideal .f32) i := by
  obtain ⟨e0, e1, -⟩ := idx_facts t
  unfold iblk3
  rw [View.read_apply]
  show V c main_v128 _ = V c main_v128 _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 64 + 1 * (y 1).val = (i 1).val; rw [e1, h1]; omega

/-- What point t writes back is block t of the normalisation of the whole array. -/
theorem flushed_eq (c : Dev nD) (t : Fin cfg3.N) :
    (dat3 V c).flushed 1 t = ((cfg3.win 1).blk t).view.read (Elt Ideal)
      (normalizeRows 50000 64 (V c main_v128)) := by
  show (cfg3.win 1).cut (grid3.coords t) ((dat3 V c).after 1 t) = _
  rw [after3_1]
  unfold out3_1
  rw [View.canon_unit_zero hz]
  simp only [View.ld_unit_zero (S := S2000x64) hz]
  rw [pay_eq]
  obtain ⟨-, -, e2, -⟩ := idx_facts t
  funext j
  rw [View.read_apply]
  refine normalizeRows_block 50000 64 2000 (V c main_v128) (iblk3 V c 0 t) _ j (fun k => ?_) ?_
  · refine iblk_x V c t _ _ ?_ rfl
    show win3_1.index t (0 : Fin 2) * 2000 + 1 * (j 0).val = win3_1.index t (0 : Fin 2) * 2000 + (j 0).val
    omega
  · show (j 1).val = win3_1.index t (1 : Fin 2) * 64 + 1 * (j 1).val
    rw [e2]; omega

/-- An index of the output is in point t's block iff its row is among the block's 2000 rows. -/
theorem mem_blk (t : Fin cfg3.N) (i : S50000x64.Idx) :
    i ∈ ((cfg3.win 1).blk t).view.set ↔ ∀ a : Fin 2, win3_1.index t a * S2000x64.size a ≤ (i a).val ∧ (i a).val < win3_1.index t a * S2000x64.size a + S2000x64.size a := by
  show i ∈ ((View.whole main_v129).slice (win3_1.rect t)).set ↔ _
  rw [View.set_slice_whole, Rect.mem_set_unit]
  exact Iff.rfl

/-- The 25 row blocks tile the output. -/
theorem cover (i : S50000x64.Idx) : ∃ t : Fin cfg3.N, (cfg3.win 1).flush t = true ∧ i ∈ ((cfg3.win 1).blk t).view.set := by
  have hi0 : (i 0).val < 50000 := (i 0).isLt
  have hi1 : (i 1).val < 64 := (i 1).isLt
  obtain ⟨t, ht⟩ := idx_onto ⟨(i 0).val / 2000, by omega⟩
  have q0 : win3_1.index t (0 : Fin 2) = (i 0).val / 2000 := congrFun ht 0
  have q1 : win3_1.index t (1 : Fin 2) = 0 := congrFun ht 1
  refine ⟨t, flush3_1 t, ?_⟩
  rw [mem_blk]
  intro a
  match a with
  | ⟨0, _⟩ => show win3_1.index t (0 : Fin 2) * 2000 ≤ (i 0).val ∧ (i 0).val < win3_1.index t (0 : Fin 2) * 2000 + 2000; omega
  | ⟨1, _⟩ => show win3_1.index t (1 : Fin 2) * 64 ≤ (i 1).val ∧ (i 1).val < win3_1.index t (1 : Fin 2) * 64 + 64; omega

/-- After the region the output array is the row normalisation of the array the region found. -/
theorem final (c : Dev nD) :
    (dat3 V c).arrAt 1 cfg3.N = normalizeRows 50000 64 (V c main_v128) :=
  (dat3 V c).arrAt_eq_of_cover 1 _ (fun t _ => flushed_eq V c t) cover

end Cert.KernelIdeal.Blocks3

end
-- ==== Proof.Reading.lean ====
/-
  What the buffers hold at each boundary between the program's segments, as stages of the argument arrays.
  Boundary 1 follows the first stretch of host operations (edge rows, edge weights, degrees, edge norms); boundary 2 the first
  region (the first projection h1 = x · W1); boundary 3 the aggregation of h1 and the bias row; boundary 4 the second region
  (h2 = max(agg1 + b1, 0) · W2); boundary 5 the aggregation of h2 and the second bias row; boundary 6 the third region (the
  row softmax); boundaries 7 and 8 the label indicator and its four propagation steps; boundary 9 the last region (the row
  normalisation). A stretch's values are its operations composed; a region changes only its output array, which ends at the
  region's stage of the arrays it found (the four block-by-block modules).
-/
import proofs.«160263_j50646254354789_1_alg».proof.Proof.Gen.KernelIdeal.Frame
import proofs.«160263_j50646254354789_1_alg».proof.Proof.Stages
import proofs.«160263_j50646254354789_1_alg».proof.Proof.Region0
import proofs.«160263_j50646254354789_1_alg».proof.Proof.Region1
import proofs.«160263_j50646254354789_1_alg».proof.Proof.Region2
import proofs.«160263_j50646254354789_1_alg».proof.Proof.Region3
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reading

open Cert.KernelIdeal Cert.KernelIdeal.Gen

open Cert.KernelIdeal.Stages Cert.LibReluDense Cert.LibRowStages Idealize.ShloMosaic.StableHlo

variable (m : (ℓ : Loc nD τ sig) → Buf (Elt Ideal) ℓ) (ρ : Dev nD → PrngReg)

set_option maxHeartbeats 16000000 in
/-- After the first stretch: the edge rows, the edge weights, the edge norms and the squared inverse root degrees. -/
theorem at1 (c : Dev nD) :
    W1 m ρ c (Proc.devRef .tc main_v1) = src (m ((c : Thread nD τ).loc main_arg1))
    ∧ W1 m ρ c (Proc.devRef .tc main_v3) = dst (m ((c : Thread nD τ).loc main_arg1))
    ∧ W1 m ρ c (Proc.devRef .tc main_v9) = ew (m ((c : Thread nD τ).loc main_arg3))
    ∧ W1 m ρ c (Proc.devRef .tc main_v31) = edgeNorm (Host.rsqrt (F := Ideal) (degK (m ((c : Thread nD τ).loc main_arg1)) (m ((c : Thread nD τ).loc main_arg3)))) (m ((c : Thread nD τ).loc main_arg1)) (m ((c : Thread nD τ).loc main_arg3))
    ∧ W1 m ρ c (Proc.devRef .tc main_v32) = mulf (Host.rsqrt (F := Ideal) (degK (m ((c : Thread nD τ).loc main_arg1)) (m ((c : Thread nD τ).loc main_arg3)))) (Host.rsqrt (F := Ideal) (degK (m ((c : Thread nD τ).loc main_arg1)) (m ((c : Thread nD τ).loc main_arg3))))
    ∧ W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_, ?_, ?_, ?_, ?_, ?_⟩ <;>
    (show StableHlo.after hostOps0 (W0 m ρ c) _ = _; after_results_simp) <;> rfl

/-- After the first region: the first projection, everything else kept. -/
theorem at2 (c : Dev nD) :
    W2 m ρ c (Proc.devRef .tc main_v33) = (dense 50000 256 128 (m ((c : Thread nD τ).loc main_arg0)) (m ((c : Thread nD τ).loc main_arg4)))
    ∧ W2 m ρ c (Proc.devRef .tc main_v1) = src (m ((c : Thread nD τ).loc main_arg1))
    ∧ W2 m ρ c (Proc.devRef .tc main_v3) = dst (m ((c : Thread nD τ).loc main_arg1))
    ∧ W2 m ρ c (Proc.devRef .tc main_v9) = ew (m ((c : Thread nD τ).loc main_arg3))
    ∧ W2 m ρ c (Proc.devRef .tc main_v31) = edgeNorm (Host.rsqrt (F := Ideal) (degK (m ((c : Thread nD τ).loc main_arg1)) (m ((c : Thread nD τ).loc main_arg3)))) (m ((c : Thread nD τ).loc main_arg1)) (m ((c : Thread nD τ).loc main_arg3))
    ∧ W2 m ρ c (Proc.devRef .tc main_v32) = mulf (Host.rsqrt (F := Ideal) (degK (m ((c : Thread nD τ).loc main_arg1)) (m ((c : Thread nD τ).loc main_arg3)))) (Host.rsqrt (F := Ideal) (degK (m ((c : Thread nD τ).loc main_arg1)) (m ((c : Thread nD τ).loc main_arg3))))
    ∧ W2 m ρ c (Proc.devRef .tc main_arg2) = m ((c : Thread nD τ).loc main_arg2)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7) := by
  obtain ⟨h1, h3, h9, h31, h32, a0, a2, a4, a5, a6, a7⟩ := at1 m ρ c
  refine ⟨?_, ?_, ?_, ?_, ?_, ?_, ?_, ?_, ?_, ?_⟩
  · refine (W2_arr m ρ c 2).trans ((Blocks0.final (V1 m ρ) c).trans ?_)
    show dense 50000 256 128 (W1 m ρ c (Proc.devRef .tc main_arg0)) (W1 m ρ c (Proc.devRef .tc main_arg4)) = _
    rw [a0, a4]
  · exact (W2_of_ne m ρ c main_v1 (by decide)).trans h1
  · exact (W2_of_ne m ρ c main_v3 (by decide)).trans h3
  · exact (W2_of_ne m ρ c main_v9 (by decide)).trans h9
  · exact (W2_of_ne m ρ c main_v31 (by decide)).trans h31
  · exact (W2_of_ne m ρ c main_v32 (by decide)).trans h32
  · exact (W2_of_ne m ρ c main_arg2 (by decide)).trans a2
  · exact (W2_of_ne m ρ c main_arg5 (by decide)).trans a5
  · exact (W2_of_ne m ρ c main_arg6 (by decide)).trans a6
  · exact (W2_of_ne m ρ c main_arg7 (by decide)).trans a7

set_option maxHeartbeats 16000000 in
/-- After the second stretch: the aggregated first layer and the first bias row. -/
theorem at3 (c : Dev nD) :
    W3 m ρ c (Proc.devRef .tc main_v50) = (agg128 (Host.rsqrt (F := Ideal) (degK (m ((c : Thread nD τ).loc main_arg1)) (m ((c : Thread nD τ).loc main_arg3)))) (m ((c : Thread nD τ).loc main_arg1)) (m ((c : Thread nD τ).loc main_arg3)) (dense 50000 256 128 (m ((c : Thread nD τ).loc main_arg0)) (m ((c : Thread nD τ).loc main_arg4))))
    ∧ W3 m ρ c (Proc.devRef .tc main_v51) = (shapeCast S1x128 (m ((c : Thread nD τ).loc main_arg5)) shapeCasts_S128_S1x128)
    ∧ W3 m ρ c (Proc.devRef .tc main_arg6) = m ((c : Thread nD τ).loc main_arg6)
    ∧ W3 m ρ c (Proc.devRef .tc main_v1) = src (m ((c : Thread nD τ).loc main_arg1))
    ∧ W3 m ρ c (Proc.devRef .tc main_v3) = dst (m ((c : Thread nD τ).loc main_arg1))
    ∧ W3 m ρ c (Proc.devRef .tc main_v9) = ew (m ((c : Thread nD τ).loc main_arg3))
    ∧ W3 m ρ c (Proc.devRef .tc main_v31) = edgeNorm (Host.rsqrt (F := Ideal) (degK (m ((c : Thread nD τ).loc main_arg1)) (m ((c : Thread nD τ).loc main_arg3)))) (m ((c : Thread nD τ).loc main_arg1)) (m ((c : Thread nD τ).loc main_arg3))
    ∧ W3 m ρ c (Proc.devRef .tc main_v32) = mulf (Host.rsqrt (F := Ideal) (degK (m ((c : Thread nD τ).loc main_arg1)) (m ((c : Thread nD τ).loc main_arg3)))) (Host.rsqrt (F := Ideal) (degK (m ((c : Thread nD τ).loc main_arg1)) (m ((c : Thread nD τ).loc main_arg3))))
    ∧ W3 m ρ c (Proc.devRef .tc main_arg2) = m ((c : Thread nD τ).loc main_arg2)
    ∧ W3 m ρ c (Proc.devRef .tc main_arg7) = m ((c : Thread nD τ).loc main_arg7) := by
  obtain ⟨h33, h1, h3, h9, h31, h32, a2, a5, a6, a7⟩ := at2 m ρ c
  refine ⟨?_, ?_, ?_, ?_, ?_, ?_, ?_, ?_, ?_, ?_⟩ <;>
    (show StableHlo.after hostOps1 (W2 m ρ c) _ = _; after_results_simp) <;>
    (try simp only [h33, h1, h3, h9, h31, h32, a2, a5, a6, a7]) <;> rfl

/-- After the second region: the second projection, everything else kept. -/
theorem at4 (c : Dev nD) :
    W4 m ρ c (Proc.devRef .tc main_v52) = (reluDense 50000 128 64 (agg128 (Host.rsqrt (F := Ideal) (degK (m ((c : Thread nD τ).loc main_arg1)) (m ((c : Thread nD τ).loc main_arg3)))) (m ((c : Thread nD τ).loc main_arg1)) (m ((c : Thread nD τ).loc main_arg3)) (dense 50000 256 128 (m ((c : Thread nD τ).loc main_arg0)) (m ((c : Thread nD τ).loc main_arg4)))) (shapeCast S1x128 (m ((c : Thread nD τ).loc main_arg5)) shapeCasts_S128_S1x128) (m ((c : Thread nD τ).loc main_arg6)))
    ∧ W4 m ρ c (Proc.devRef .tc main_v1) = src (m ((c : Thread nD τ).loc main_arg1))
    ∧ W4 m ρ c (Proc.devRef .tc main_v3) = dst (m ((c : Thread nD τ).loc main_arg1))
    ∧ W4 m ρ c (Proc.devRef .tc main_v9) = ew (m ((c : Thread nD τ).loc main_arg3))
    ∧ W4 m ρ c (Proc.devRef .tc main_v31) = edgeNorm (Host.rsqrt (F := Ideal) (degK (m ((c : Thread nD τ).loc main_arg1)) (m ((c : Thread nD τ).loc main_arg3)))) (m ((c : Thread nD τ).loc main_arg1)) (m ((c : Thread nD τ).loc main_arg3))
    ∧ W4 m ρ c (Proc.devRef .tc main_v32) = mulf (Host.rsqrt (F := Ideal) (degK (m ((c : Thread nD τ).loc main_arg1)) (m ((c : Thread nD τ).loc main_arg3)))) (Host.rsqrt (F := Ideal) (degK (m ((c : Thread nD τ).loc main_arg1)) (m ((c : Thread nD τ).loc main_arg3))))
    ∧ W4 m ρ c (Proc.devRef .tc main_arg2) = m ((c : Thread nD τ).loc main_arg2)
    ∧ W4 m ρ c (Proc.devRef .tc main_arg7) = m ((c : Thread nD τ).loc main_arg7) := by
  obtain ⟨h50, h51, a6, h1, h3, h9, h31, h32, a2, a7⟩ := at3 m ρ c
  refine ⟨?_, ?_, ?_, ?_, ?_, ?_, ?_, ?_⟩
  · refine (W4_arr m ρ c 3).trans ((Blocks1.final (V3 m ρ) c).trans ?_)
    show reluDense 50000 128 64 (W3 m ρ c (Proc.devRef .tc main_v50)) (W3 m ρ c (Proc.devRef .tc main_v51)) (W3 m ρ c (Proc.devRef .tc main_arg6)) = _
    rw [h50, h51, a6]
  · exact (W4_of_ne m ρ c main_v1 (by decide)).trans h1
  · exact (W4_of_ne m ρ c main_v3 (by decide)).trans h3
  · exact (W4_of_ne m ρ c main_v9 (by decide)).trans h9
  · exact (W4_of_ne m ρ c main_v31 (by decide)).trans h31
  · exact (W4_of_ne m ρ c main_v32 (by decide)).trans h32
  · exact (W4_of_ne m ρ c main_arg2 (by decide)).trans a2
  · exact (W4_of_ne m ρ c main_arg7 (by decide)).trans a7

set_option maxHeartbeats 16000000 in
/-- After the third stretch: the aggregated second layer and the second bias row. -/
theorem at5 (c : Dev nD) :
    W5 m ρ c (Proc.devRef .tc main_v69) = (agg64 (Host.rsqrt (F := Ideal) (degK (m ((c : Thread nD τ).loc main_arg1)) (m ((c : Thread nD τ).loc main_arg3)))) (m ((c : Thread nD τ).loc main_arg1)) (m ((c : Thread nD τ).loc main_arg3)) (reluDense 50000 128 64 (agg128 (Host.rsqrt (F := Ideal) (degK (m ((c : Thread nD τ).loc main_arg1)) (m ((c : Thread nD τ).loc main_arg3)))) (m ((c : Thread nD τ).loc main_arg1)) (m ((c : Thread nD τ).loc main_arg3)) (dense 50000 256 128 (m ((c : Thread nD τ).loc main_arg0)) (m ((c : Thread nD τ).loc main_arg4)))) (shapeCast S1x128 (m ((c : Thread nD τ).loc main_arg5)) shapeCasts_S128_S1x128) (m ((c : Thread nD τ).loc main_arg6))))
    ∧ W5 m ρ c (Proc.devRef .tc main_v70) = (shapeCast S1x64 (m ((c : Thread nD τ).loc main_arg7)) shapeCasts_S64_S1x64)
    ∧ W5 m ρ c (Proc.devRef .tc main_v1) = src (m ((c : Thread nD τ).loc main_arg1))
    ∧ W5 m ρ c (Proc.devRef .tc main_v3) = dst (m ((c : Thread nD τ).loc main_arg1))
    ∧ W5 m ρ c (Proc.devRef .tc main_v9) = ew (m ((c : Thread nD τ).loc main_arg3))
    ∧ W5 m ρ c (Proc.devRef .tc main_arg2) = m ((c : Thread nD τ).loc main_arg2) := by
  obtain ⟨h52, h1, h3, h9, h31, h32, a2, a7⟩ := at4 m ρ c
  refine ⟨?_, ?_, ?_, ?_, ?_, ?_⟩ <;>
    (show StableHlo.after hostOps2 (W4 m ρ c) _ = _; after_results_simp) <;>
    (try simp only [h52, h1, h3, h9, h31, h32, a2, a7]) <;> rfl

/-- After the third region: the first result, the row softmax; the edge data and the labels kept. -/
theorem at6 (c : Dev nD) :
    W6 m ρ c (Proc.devRef .tc main_v71) = (softmaxBias 50000 64 (agg64 (Host.rsqrt (F := Ideal) (degK (m ((c : Thread nD τ).loc main_arg1)) (m ((c : Thread nD τ).loc main_arg3)))) (m ((c : Thread nD τ).loc main_arg1)) (m ((c : Thread nD τ).loc main_arg3)) (reluDense 50000 128 64 (agg128 (Host.rsqrt (F := Ideal) (degK (m ((c : Thread nD τ).loc main_arg1)) (m ((c : Thread nD τ).loc main_arg3)))) (m ((c : Thread nD τ).loc main_arg1)) (m ((c : Thread nD τ).loc main_arg3)) (dense 50000 256 128 (m ((c : Thread nD τ).loc main_arg0)) (m ((c : Thread nD τ).loc main_arg4)))) (shapeCast S1x128 (m ((c : Thread nD τ).loc main_arg5)) shapeCasts_S128_S1x128) (m ((c : Thread nD τ).loc main_arg6)))) (shapeCast S1x64 (m ((c : Thread nD τ).loc main_arg7)) shapeCasts_S64_S1x64))
    ∧ W6 m ρ c (Proc.devRef .tc main_v1) = src (m ((c : Thread nD τ).loc main_arg1))
    ∧ W6 m ρ c (Proc.devRef .tc main_v3) = dst (m ((c : Thread nD τ).loc main_arg1))
    ∧ W6 m ρ c (Proc.devRef .tc main_v9) = ew (m ((c : Thread nD τ).loc main_arg3))
    ∧ W6 m ρ c (Proc.devRef .tc main_arg2) = m ((c : Thread nD τ).loc main_arg2) := by
  obtain ⟨h69, h70, h1, h3, h9, a2⟩ := at5 m ρ c
  refine ⟨?_, ?_, ?_, ?_, ?_⟩
  · refine (W6_arr m ρ c 2).trans ((Blocks2.final (V5 m ρ) c).trans ?_)
    show softmaxBias 50000 64 (W5 m ρ c (Proc.devRef .tc main_v69)) (W5 m ρ c (Proc.devRef .tc main_v70)) = _
    rw [h69, h70]
  · exact (W6_of_ne m ρ c main_v1 (by decide)).trans h1
  · exact (W6_of_ne m ρ c main_v3 (by decide)).trans h3
  · exact (W6_of_ne m ρ c main_v9 (by decide)).trans h9
  · exact (W6_of_ne m ρ c main_arg2 (by decide)).trans a2

end Cert.KernelIdeal.Reading

end
-- ==== Proof.Reading2.lean ====
/-
  The last boundaries: the label indicator and its four propagation steps, and the return.
-/
import proofs.«160263_j50646254354789_1_alg».proof.Proof.Reading

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reading

open Cert.KernelIdeal Cert.KernelIdeal.Gen

open Cert.KernelIdeal.Stages Cert.LibReluDense Cert.LibRowStages Idealize.ShloMosaic.StableHlo

variable (m : (ℓ : Loc nD τ sig) → Buf (Elt Ideal) ℓ) (ρ : Dev nD → PrngReg)

set_option maxHeartbeats 16000000 in
/-- After the label indicator's stretch and the four propagation steps (boundaries 7 and 8 read together from boundary 6). -/
theorem at8 (c : Dev nD) :
    W8 m ρ c (Proc.devRef .tc main_v128) = (labels4 (m ((c : Thread nD τ).loc main_arg1)) (m ((c : Thread nD τ).loc main_arg2)) (m ((c : Thread nD τ).loc main_arg3)))
    ∧ W8 m ρ c (Proc.devRef .tc main_v71) = (softmaxBias 50000 64 (agg64 (Host.rsqrt (F := Ideal) (degK (m ((c : Thread nD τ).loc main_arg1)) (m ((c : Thread nD τ).loc main_arg3)))) (m ((c : Thread nD τ).loc main_arg1)) (m ((c : Thread nD τ).loc main_arg3)) (reluDense 50000 128 64 (agg128 (Host.rsqrt (F := Ideal) (degK (m ((c : Thread nD τ).loc main_arg1)) (m ((c : Thread nD τ).loc main_arg3)))) (m ((c : Thread nD τ).loc main_arg1)) (m ((c : Thread nD τ).loc main_arg3)) (dense 50000 256 128 (m ((c : Thread nD τ).loc main_arg0)) (m ((c : Thread nD τ).loc main_arg4)))) (shapeCast S1x128 (m ((c : Thread nD τ).loc main_arg5)) shapeCasts_S128_S1x128) (m ((c : Thread nD τ).loc main_arg6)))) (shapeCast S1x64 (m ((c : Thread nD τ).loc main_arg7)) shapeCasts_S64_S1x64)) := by
  obtain ⟨h71, h1, h3, h9, a2⟩ := at6 m ρ c
  refine ⟨?_, ?_⟩ <;>
    (show StableHlo.after hostOps3_1 (W7 m ρ c) _ = _; after_results_simp) <;>
    (try simp only [h71, h1, h3, h9, a2]) <;> rfl

/-- At the return: the two results. -/
theorem at9 (c : Dev nD) :
    W9 m ρ c (Proc.devRef .tc main_v71) = (softmaxBias 50000 64 (agg64 (Host.rsqrt (F := Ideal) (degK (m ((c : Thread nD τ).loc main_arg1)) (m ((c : Thread nD τ).loc main_arg3)))) (m ((c : Thread nD τ).loc main_arg1)) (m ((c : Thread nD τ).loc main_arg3)) (reluDense 50000 128 64 (agg128 (Host.rsqrt (F := Ideal) (degK (m ((c : Thread nD τ).loc main_arg1)) (m ((c : Thread nD τ).loc main_arg3)))) (m ((c : Thread nD τ).loc main_arg1)) (m ((c : Thread nD τ).loc main_arg3)) (dense 50000 256 128 (m ((c : Thread nD τ).loc main_arg0)) (m ((c : Thread nD τ).loc main_arg4)))) (shapeCast S1x128 (m ((c : Thread nD τ).loc main_arg5)) shapeCasts_S128_S1x128) (m ((c : Thread nD τ).loc main_arg6)))) (shapeCast S1x64 (m ((c : Thread nD τ).loc main_arg7)) shapeCasts_S64_S1x64))
    ∧ W9 m ρ c (Proc.devRef .tc main_v129) = normalizeRows 50000 64 (labels4 (m ((c : Thread nD τ).loc main_arg1)) (m ((c : Thread nD τ).loc main_arg2)) (m ((c : Thread nD τ).loc main_arg3))) := by
  obtain ⟨h128, h71⟩ := at8 m ρ c
  refine ⟨(W9_of_ne m ρ c main_v71 (by decide)).trans h71, ?_⟩
  refine (W9_arr m ρ c 1).trans ((Blocks3.final (V8 m ρ) c).trans ?_)
  show normalizeRows 50000 64 (W8 m ρ c (Proc.devRef .tc main_v128)) = _
  rw [h128]

end Cert.KernelIdeal.Reading

end
-- ==== Proof.RefSide.lean ====
/-
  The reference's two results as the same stages of the argument arrays.
  The reference is host operations only; its run's composed terms are, by unfolding, the stages of the graph convolution
  (the in-degree spelt 'sum into ones at the wrapped column', the bias rows made by a broadcast along axis 1) with the two
  projections, the softmax and the normalisation in the host's spellings, each of which is the same index-by-index function
  as the kernel's spelling.
-/
import proofs.«160263_j50646254354789_1_alg».proof.Proof.Gen.ReferenceIdeal.Run
import proofs.«160263_j50646254354789_1_alg».proof.Proof.Stages
import proofs.«160263_j50646254354789_1_alg».proof.Proof.LibReluDense
import proofs.«160263_j50646254354789_1_alg».proof.Proof.LibRowStages

set_option maxRecDepth 16384

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Value
open Cert.KernelIdeal.Stages Cert.LibReluDense Cert.LibRowStages

variable (m : (ℓ : Loc nD τ sig) → Buf (Elt Ideal) ℓ)

set_option maxHeartbeats 4000000 in
/-- The first result: the row softmax of the second aggregated layer plus its bias row. -/
theorem out0_eq (c : Dev nD) :
    res_main_v115 (F := Ideal) m c = softmaxBias 50000 64 (agg64 (Host.rsqrt (F := Ideal) (degR (m ((c.tc : Thread nD τ).loc main_arg1)) (m ((c.tc : Thread nD τ).loc main_arg3)))) (m ((c.tc : Thread nD τ).loc main_arg1)) (m ((c.tc : Thread nD τ).loc main_arg3)) (reluDense 50000 128 64 (agg128 (Host.rsqrt (F := Ideal) (degR (m ((c.tc : Thread nD τ).loc main_arg1)) (m ((c.tc : Thread nD τ).loc main_arg3)))) (m ((c.tc : Thread nD τ).loc main_arg1)) (m ((c.tc : Thread nD τ).loc main_arg3)) (dense 50000 256 128 (m ((c.tc : Thread nD τ).loc main_arg0)) (m ((c.tc : Thread nD τ).loc main_arg4)))) (broadcastInDim S1x128 ![1] bcast_S128_S1x128_1 (m ((c.tc : Thread nD τ).loc main_arg5))) (m ((c.tc : Thread nD τ).loc main_arg6)))) (broadcastInDim S1x64 ![1] bcast_S64_S1x64_1 (m ((c.tc : Thread nD τ).loc main_arg7))) := by
  rw [← softmaxBias_of_host 50000 64 _ _ bcast_S1x64_S50000x64_0_1 reducesTo_S50000x64_S50000_d1 h_S_ bcast_S_S50000 bcast_S50000_S50000x1_0 bcast_S50000x1_S50000x64_0_1,
    ← reluDense_of_dotGeneral 50000 128 64 _ _ _ bcast_S1x128_S50000x128_0_1 bcast_S_S50000x128,
    ← dense_of_dotGeneral 50000 256 128]
  unfold res_main_v115
  rfl

set_option maxHeartbeats 4000000 in
/-- The second result: the row normalisation of the four-times propagated labels. -/
theorem out1_eq (c : Dev nD) :
    res_main_v177 (F := Ideal) m c = normalizeRows 50000 64 (labels4 (m ((c.tc : Thread nD τ).loc main_arg1)) (m ((c.tc : Thread nD τ).loc main_arg2)) (m ((c.tc : Thread nD τ).loc main_arg3))) := by
  rw [← normalizeRows_of_host 50000 64 _ reducesTo_S50000x64_S50000_d1 h_S_ bcast_S50000_S50000x1_0 bcast_S_S50000x1 bcast_S50000x1_S50000x64_0_1]
  unfold res_main_v177
  rfl

end Cert.ReferenceIdeal.Hand

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.LibDegree.lean ====
/-
  The weighted in-degree vector of a graph with a self-loop of weight one at every node,
  `deg n = 1 + Σ_{e : dst e = n} w e`, in the two spellings two programs use.

  One program accumulates the edge weights into a vector of zeros and then adds the vector of ones; the other
  accumulates them into the vector of ones directly, after first wrapping a negative destination index by a constant.
  When no destination index is negative the wrap is never taken, so both scatter
  the same updates to the same positions, and the two results differ only in where the one is added:
  `(0 + Σ) + 1 = 1 + Σ` in the extended reals.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«160263_j50646254354789_1_alg».proof.Proof.LibScatterRows
import proofs.«160263_j50646254354789_1_alg».proof.Proof.LibHostBroadcast

open scoped BigOperators
open Idealize.ShloMosaic Idealize.ShloMosaic.ValueIdx

noncomputable section

namespace Cert.LibDegree

/-- A word that is not negative, read signed, is not below the zero word in the signed order. -/
theorem slt_zero_eq_false {x : BitVec 32} (h : 0 ≤ x.toInt) : x.slt 0#32 = false := by
  rw [BitVec.slt_eq_decide]
  simp only [BitVec.toInt_zero, decide_eq_false_iff_not, not_lt]
  exact h

/-- The wrap of a destination index that is not negative is the index itself. -/
theorem wrap_eq {x nn : BitVec 32} (h : 0 ≤ x.toInt) :
    Scalar.select (IntOp.cmpi .slt x 0#32) (IntOp.addi x nn) x = x := by
  have : IntOp.cmpi .slt x 0#32 = 0#1 := by
    show BitVec.ofBool (x.slt 0#32) = 0#1
    rw [slt_zero_eq_false h]; rfl
  rw [this, select_zero]

variable (N E : Nat)

/-- The degree vector: accumulating the weights into zeros and then adding ones is accumulating them into ones, after
    the wrap of a negative destination index, when no destination index is negative. -/
theorem degree_eq
    (hwf : ScatterDims.WF ⟨1, ![N]⟩ ⟨2, ![E, 1]⟩ ⟨1, ![E]⟩ [] [0] [0] 1)
    (hb0 : (⟨0, ![]⟩ : Shape).BroadcastsInDim ⟨1, ![N]⟩ (![] : Fin 0 → Fin 1))
    (hbE : (⟨0, ![]⟩ : Shape).BroadcastsInDim ⟨1, ![E]⟩ (![] : Fin 0 → Fin 1))
    (hbi : (⟨1, ![E]⟩ : Shape).BroadcastsInDim ⟨2, ![E, 1]⟩ (![0] : Fin 1 → Fin 2))
    (dst : IVec ⟨1, ![E]⟩ 32) (w : FVec Ideal ⟨1, ![E]⟩ .f32) (nn : BitVec 32)
    (hpos : ∀ e : Fin E, 0 ≤ (dst (ix1 e)).toInt) :
    addf (F := Ideal)
        (Host.scatterAdd (F := Ideal) (⟨[], [0], [0], 1, hwf⟩ : ScatterDims ⟨1, ![N]⟩ ⟨2, ![E, 1]⟩ ⟨1, ![E]⟩)
          (broadcastInDim ⟨1, ![N]⟩ ![] hb0 (constant (F := Ideal) ⟨0, ![]⟩ .f32 0x00000000#32))
          (broadcastInDim ⟨2, ![E, 1]⟩ ![0] hbi dst) w)
        (broadcastInDim ⟨1, ![N]⟩ ![] hb0 (constant (F := Ideal) ⟨0, ![]⟩ .f32 0x3F800000#32))
      = Host.scatterAdd (F := Ideal) (⟨[], [0], [0], 1, hwf⟩ : ScatterDims ⟨1, ![N]⟩ ⟨2, ![E, 1]⟩ ⟨1, ![E]⟩)
          (broadcastInDim ⟨1, ![N]⟩ ![] hb0 (constant (F := Ideal) ⟨0, ![]⟩ .f32 0x3F800000#32))
          (broadcastInDim ⟨2, ![E, 1]⟩ ![0] hbi
            (select (cmpi .slt dst (broadcastInDim ⟨1, ![E]⟩ ![] hbE (constantI ⟨0, ![]⟩ 32 0#32)))
              (addi dst (broadcastInDim ⟨1, ![E]⟩ ![] hbE (constantI ⟨0, ![]⟩ 32 nn))) dst))
          w := by
  funext n
  obtain ⟨n', rfl⟩ : ∃ n' : Fin N, n = ix1 n' := ⟨n 0, eq_ix1 n⟩
  rw [addf_apply]
  show Ideal.hostScatterAdd _ _ _ _ (ix1 n') + _ = Ideal.hostScatterAdd _ _ _ _ (ix1 n')
  rw [Cert.LibScatterRows.scatterVec_apply, Cert.LibScatterRows.scatterVec_apply]
  -- the destination column read at an edge is the same word in both spellings
  have hidx : ∀ e : Fin E,
      broadcastInDim ⟨2, ![E, 1]⟩ ![0] hbi
          (select (cmpi .slt dst (broadcastInDim ⟨1, ![E]⟩ ![] hbE (constantI ⟨0, ![]⟩ 32 0#32)))
            (addi dst (broadcastInDim ⟨1, ![E]⟩ ![] hbE (constantI ⟨0, ![]⟩ 32 nn))) dst) (ix2 e (0 : Fin 1))
        = broadcastInDim ⟨2, ![E, 1]⟩ ![0] hbi dst (ix2 e (0 : Fin 1)) := by
    intro e
    rw [Cert.LibHostBroadcast.vec_to_col, Cert.LibHostBroadcast.vec_to_col, select_apply]
    show Scalar.select (IntOp.cmpi .slt (dst (ix1 e)) (broadcastInDim ⟨1, ![E]⟩ ![] hbE (constantI ⟨0, ![]⟩ 32 0#32) (ix1 e)))
        (IntOp.addi (dst (ix1 e)) (broadcastInDim ⟨1, ![E]⟩ ![] hbE (constantI ⟨0, ![]⟩ 32 nn) (ix1 e))) (dst (ix1 e)) = dst (ix1 e)
    rw [Cert.LibHostBroadcast.scalar_to_any, Cert.LibHostBroadcast.scalar_to_any]
    exact wrap_eq (hpos e)
  simp only [hidx]
  rw [Cert.LibHostBroadcast.scalar_to_any, Cert.LibHostBroadcast.scalar_to_any, constant_apply, constant_apply,
    Ideal.ofBits_zero_f32, zero_add, add_comm]

/-- The same, for any record of these dimension numbers. -/
theorem degree_eq_of_dims
    (hwf : ScatterDims.WF ⟨1, ![N]⟩ ⟨2, ![E, 1]⟩ ⟨1, ![E]⟩ [] [0] [0] 1)
    (D : ScatterDims ⟨1, ![N]⟩ ⟨2, ![E, 1]⟩ ⟨1, ![E]⟩) (hD : D = ⟨[], [0], [0], 1, hwf⟩)
    (hb0 : (⟨0, ![]⟩ : Shape).BroadcastsInDim ⟨1, ![N]⟩ (![] : Fin 0 → Fin 1))
    (hbE : (⟨0, ![]⟩ : Shape).BroadcastsInDim ⟨1, ![E]⟩ (![] : Fin 0 → Fin 1))
    (hbi : (⟨1, ![E]⟩ : Shape).BroadcastsInDim ⟨2, ![E, 1]⟩ (![0] : Fin 1 → Fin 2))
    (dst : IVec ⟨1, ![E]⟩ 32) (w : FVec Ideal ⟨1, ![E]⟩ .f32) (nn : BitVec 32)
    (hpos : ∀ e : Fin E, 0 ≤ (dst (ix1 e)).toInt) :
    addf (F := Ideal)
        (Host.scatterAdd (F := Ideal) D
          (broadcastInDim ⟨1, ![N]⟩ ![] hb0 (constant (F := Ideal) ⟨0, ![]⟩ .f32 0x00000000#32))
          (broadcastInDim ⟨2, ![E, 1]⟩ ![0] hbi dst) w)
        (broadcastInDim ⟨1, ![N]⟩ ![] hb0 (constant (F := Ideal) ⟨0, ![]⟩ .f32 0x3F800000#32))
      = Host.scatterAdd (F := Ideal) D
          (broadcastInDim ⟨1, ![N]⟩ ![] hb0 (constant (F := Ideal) ⟨0, ![]⟩ .f32 0x3F800000#32))
          (broadcastInDim ⟨2, ![E, 1]⟩ ![0] hbi
            (select (cmpi .slt dst (broadcastInDim ⟨1, ![E]⟩ ![] hbE (constantI ⟨0, ![]⟩ 32 0#32)))
              (addi dst (broadcastInDim ⟨1, ![E]⟩ ![] hbE (constantI ⟨0, ![]⟩ 32 nn))) dst))
          w := by
  subst hD
  exact degree_eq N E hwf hb0 hbE hbi dst w nn hpos

end Cert.LibDegree
-- ==== Proof.Degrees.lean ====
/-
  The two spellings of the in-degree agree on an edge array with no negative entry.

  The destination of an edge is an entry of the edge array (row 1), so it is not negative when no entry is; the
  'add N where negative' wrap of the destination column is then never taken, and 'sum into zeros, then add one' is
  'sum into ones at the wrapped column': `(0 + Σ) + 1 = 1 + Σ`.
-/
import proofs.«160263_j50646254354789_1_alg».proof.Proof.Stages
import proofs.«160263_j50646254354789_1_alg».proof.Proof.LibDegree
import Idealize.ShloMosaic.Lib.ValueIdx

noncomputable section

open Idealize.ShloMosaic Idealize.ShloMosaic.TcCoe Idealize.SL.Sem

namespace Cert.KernelIdeal.Degrees

open Cert.KernelIdeal Cert.KernelIdeal.Gen Cert.KernelIdeal.Stages

/-- Each destination is an entry of the edge array, so it is not negative when no entry is. -/
theorem dst_nonneg (x1 : IVec S2x1600000 32) (h : ∀ i : S2x1600000.Idx, 0 ≤ (x1 i).toInt) :
    ∀ e : Fin 1600000, 0 ≤ (dst x1 (ValueIdx.ix1 e)).toInt := by
  intro e
  unfold dst shapeCast extractStridedSlice
  exact h _

/-- The in-degree summed into zeros with one added is the in-degree summed into ones at the wrapped column, when no
    entry of the edge array is negative. -/
theorem deg_eq (x1 : IVec S2x1600000 32) (x3 : FVec Ideal S1600000 .f32) (h : ∀ i : S2x1600000.Idx, 0 ≤ (x1 i).toInt) :
    degK x1 x3 = degR x1 x3 := by
  unfold degK degR col wrap
  exact Cert.LibDegree.degree_eq_of_dims 50000 1600000 scatter_S50000_S1600000x1_S1600000_n_0_0_1_wf
    scatter_S50000_S1600000x1_S1600000_n_0_0_1 rfl bcast_S_S50000 bcast_S_S1600000 bcast_S1600000_S1600000x1_0
    (dst x1) (ew x3) 50000#32 (dst_nonneg x1 h)

end Cert.KernelIdeal.Degrees

end
-- ==== Proof.PreIndices.lean ====
/-
  The last conjunct of the precondition, read back at one entry of the edge-index array.

  The precondition is a chain of `and`s of one-bit words whose last operand is the `all` (a reduction by `and` over
  both axes, from the word 1) of the elementwise `0 ≤ a1 ∧ a1 < 50000`, both comparisons signed. If the whole chain
  is 1 then so is its last operand; a reduction by `and` that is 1 met only 1s; and the bit of `0 ≤ x` being 1 says
  the word `x`, read signed, is not negative. The `0` compared against is the zero word spread over the array, which
  reads `0` at every entry.
-/
import proofs.«160263_j50646254354789_1_alg».proof.Pre_finite_inputs
import Idealize.ShloMosaic.Lib.ReduceAll
import Idealize.ShloMosaic.Lib.ValueIdx

noncomputable section

namespace Cert.PreIndices

open Idealize.ShloMosaic Idealize.ShloMosaic.ValueIdx
open Cert.Pre_finite_inputs

/-- The scalar shape has one index. -/
instance : Subsingleton S_.Idx := ⟨fun _ _ => funext fun d => d.elim0⟩

/-- Under the precondition every entry of the edge-index array, read signed, is not negative. -/
theorem indices_nonneg [Facts] {F : FTy → Type} [FloatOps F]
    (a0 : FVec F S50000x256 .f32) (a1 : IVec S2x1600000 32) (a2 : IVec S50000 32) (a3 : FVec F S1600000 .f32)
    (a4 : FVec F S256x128 .f32) (a5 : FVec F S128 .f32) (a6 : FVec F S128x64 .f32) (a7 : FVec F S64 .f32)
    (h : fn (F := F) a0 a1 a2 a3 a4 a5 a6 a7 = fun _ => 1#1) :
    ∀ i : S2x1600000.Idx, 0 ≤ (a1 i).toInt := by
  intro i
  have e := congrFun h ix0
  unfold fn fn_part1 fn_part2 at e
  dsimp only at e
  -- the chain's last operand is the reduction over the whole array
  have e2 := (IntOp.andi_eq_one.1 e).2
  -- every element that reduction met is 1
  have e3 := Host.reduce_andi_all _ _ _ _ ix0 e2 i
  -- the element is the `and` of the two comparisons' bits: take the first
  have e4 := (IntOp.andi_eq_one.1 e3).1
  exact IntOp.cmpi_sge.1 e4

/-- Under the precondition every entry of the edge-index array, read signed, is below 50000. -/
theorem indices_lt [Facts] {F : FTy → Type} [FloatOps F]
    (a0 : FVec F S50000x256 .f32) (a1 : IVec S2x1600000 32) (a2 : IVec S50000 32) (a3 : FVec F S1600000 .f32)
    (a4 : FVec F S256x128 .f32) (a5 : FVec F S128 .f32) (a6 : FVec F S128x64 .f32) (a7 : FVec F S64 .f32)
    (h : fn (F := F) a0 a1 a2 a3 a4 a5 a6 a7 = fun _ => 1#1) :
    ∀ i : S2x1600000.Idx, (a1 i).toInt < 50000 := by
  intro i
  have e := congrFun h ix0
  unfold fn fn_part1 fn_part2 at e
  dsimp only at e
  have e2 := (IntOp.andi_eq_one.1 e).2
  have e3 := Host.reduce_andi_all _ _ _ _ ix0 e2 i
  have e4 := (IntOp.andi_eq_one.1 e3).2
  exact IntOp.cmpi_slt.1 e4

end Cert.PreIndices

end
-- ==== Proof.Rows.lean ====
/-
  The two bias rows. A vector of length K made a [1, K] row by a reshape and by a broadcast along axis 1 is the same array:
  entry (0, k) of either is entry k of the vector.
-/
import proofs.«160263_j50646254354789_1_alg».proof.Proof.Gen.KernelIdeal
import proofs.«160263_j50646254354789_1_alg».proof.Proof.LibReluDense

noncomputable section

open Idealize.ShloMosaic

namespace Cert.KernelIdeal.Rows

open Cert.KernelIdeal Cert.KernelIdeal.Gen

/-- The first layer's bias as a row: the broadcast along axis 1 is the reshape. -/
theorem row128 (x5 : FVec Ideal S128 .f32) (h' : S128.BroadcastsInDim S1x128 (![1] : Fin 1 → Fin 2)) :
    broadcastInDim S1x128 ![1] h' x5 = shapeCast S1x128 x5 shapeCasts_S128_S1x128 :=
  (Cert.LibReluDense.row_reshape_eq_broadcast 128 x5 shapeCasts_S128_S1x128 h').symm

/-- The second layer's bias as a row: the broadcast along axis 1 is the reshape. -/
theorem row64 (x7 : FVec Ideal S64 .f32) (h' : S64.BroadcastsInDim S1x64 (![1] : Fin 1 → Fin 2)) :
    broadcastInDim S1x64 ![1] h' x7 = shapeCast S1x64 x7 shapeCasts_S64_S1x64 :=
  (Cert.LibReluDense.row_reshape_eq_broadcast 64 x7 shapeCasts_S64_S1x64 h').symm

end Cert.KernelIdeal.Rows

end
-- ==== Proof.lean ====
/-
  Equivalence, over the extended reals, of a two-layer graph convolution with label propagation — four grid kernels (the two
  dense projections, a row softmax, a row normalisation) between stretches of host operations that gather along the edges and
  sum into the nodes — and its plain host reference.

  With N = 50 000 nodes, E = 1 600 000 edges (src, dst the two rows of the edge array), ew = 1 / (1 + exp(−w)):
      deg(n)  = 1 + Σ_{e : dst e = n} ew e,    dinv = deg^(−1/2),    norm e = dinv(src e) · ew e · dinv(dst e),
      agg h   = (n, c) ↦ Σ_{e : dst e = n} norm e · h(src e, c) + dinv(n)² · h(n, c),
      out     = softmax_rows (agg (max (agg (x · W1) + b1, 0) · W2) + b2),
      labels  = four steps L ↦ (Σ_{e : src e = n} ew e · L(dst e, ·)) + L from the label indicator, each row over
                max(its Euclidean length, a small floor).
  Both programs compute these same stages. They differ in three spellings only: the kernels' matrix products, softmax and
  normalisation against the host's (equal index by index; a block of rows of each depends only on the same rows of its
  input, so the 25 row blocks a kernel writes are the stage of the whole array); the bias rows (a reshape against a
  broadcast along axis 1: one array); and the degree, which the kernel sums into zeros at the raw destination column and
  then adds one, while the reference sums into ones at the destination column with N added where negative. The last two
  agree when no destination is negative, which the precondition's index range gives; a sum into zeros plus one is one
  plus the sum on the extended reals (addition there is commutative and associative, and 0 is neutral).
  The frames of the two kernel programs are the generated ones; the reference's frame is its run with the results dropped.
-/
import proofs.«160263_j50646254354789_1_alg».proof.Defs
import proofs.«160263_j50646254354789_1_alg».proof.Proof.Gen.Kernel
import proofs.«160263_j50646254354789_1_alg».proof.Proof.Gen.Kernel.Skeleton
import proofs.«160263_j50646254354789_1_alg».proof.Proof.Gen.Kernel.Launch
import proofs.«160263_j50646254354789_1_alg».proof.Proof.Gen.Kernel.Points
import proofs.«160263_j50646254354789_1_alg».proof.Proof.Gen.Kernel.Frame
import proofs.«160263_j50646254354789_1_alg».proof.Proof.Gen.KernelIdeal
import proofs.«160263_j50646254354789_1_alg».proof.Proof.Gen.KernelIdeal.Skeleton
import proofs.«160263_j50646254354789_1_alg».proof.Proof.Gen.KernelIdeal.Launch
import proofs.«160263_j50646254354789_1_alg».proof.Proof.Gen.KernelIdeal.Points
import proofs.«160263_j50646254354789_1_alg».proof.Proof.Gen.KernelIdeal.Frame
import proofs.«160263_j50646254354789_1_alg».proof.Proof.Gen.ReferenceIdeal
import proofs.«160263_j50646254354789_1_alg».proof.Proof.Gen.Pre_finite_inputs
import proofs.«160263_j50646254354789_1_alg».proof.Proof.Gen.ReferenceIdeal.Run
import proofs.«160263_j50646254354789_1_alg».proof.Proof.KRun
import proofs.«160263_j50646254354789_1_alg».proof.Proof.Reading
import proofs.«160263_j50646254354789_1_alg».proof.Proof.Reading2
import proofs.«160263_j50646254354789_1_alg».proof.Proof.RefSide
import proofs.«160263_j50646254354789_1_alg».proof.Proof.Degrees
import proofs.«160263_j50646254354789_1_alg».proof.Proof.PreIndices
import proofs.«160263_j50646254354789_1_alg».proof.Proof.Rows
import Idealize.ShloMosaic.Adequacy
import Idealize.ShloMosaic.Init

set_option maxRecDepth 16384

noncomputable section

namespace Cert.Proof

open Idealize.ShloMosaic Idealize.ShloMosaic.TcCoe Idealize.SL.Sem

/-- The word-level kernel's frame: the generated one. -/
theorem frame_k : Cert.frame_Kernel := fun m ρ _ => Cert.Kernel.Gen.frame m ρ

/-- The idealized kernel's frame: the generated one. -/
theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Under the precondition no entry of the edge array is negative. -/
theorem edges_nonneg (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2x1600000.Idx,
      0 ≤ ((m ((c.tc : Thread Cert.KernelIdeal.nD Cert.KernelIdeal.τ).loc Cert.KernelIdeal.main_arg1) : IVec Cert.KernelIdeal.S2x1600000 32) i).toInt :=
  Cert.PreIndices.indices_nonneg _ _ _ _ _ _ _ _ (hpre c)

/-- Both idealized programs end with the softmax of the second layer and the normalised propagated labels of the same
    argument arrays: the kernel's run read boundary by boundary, the reference's composed terms unfolded, the two degree
    spellings joined under the index range and the two bias-row spellings joined outright. -/
theorem algebraic : Cert.algebraic_KernelIdeal_ReferenceIdeal := by
  intro m ρ m' ρ' hpre hagree
  refine ⟨_, _, (θ_run Cert.KernelIdeal.defs _ _).mono (fun r h c =>
      ⟨(h c).1.trans (Cert.KernelIdeal.Reading.at9 m ρ c).1, (h c).2.1.trans (Cert.KernelIdeal.Reading.at9 m ρ c).2, (h c).2.2⟩)
      (Cert.KernelIdeal.Named.run (F := Ideal) m ρ), ?_⟩
  refine (θ_run Cert.ReferenceIdeal.defs _ _).mono (fun r h c => ?_) (Cert.ReferenceIdeal.Value.run (F := Ideal) m' ρ')
  obtain ⟨e0, e1, e2, e3, e4, e5, e6, e7⟩ := hagree c
  refine ⟨(h c).1.trans ?_, (h c).2.1.trans ?_, (h c).2.2⟩
  · rw [Cert.ReferenceIdeal.Hand.out0_eq m' c, e0, e1, e3, e4, e5, e6, e7,
      ← Cert.KernelIdeal.Degrees.deg_eq _ _ (edges_nonneg m hpre c),
      Cert.KernelIdeal.Rows.row128, Cert.KernelIdeal.Rows.row64]
  · rw [Cert.ReferenceIdeal.Hand.out1_eq m' c, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
